-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x64 .f32) (main_arg12 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S1x64 : Shape := ⟨2, ![1, 64]⟩
abbrev S5000x128 : Shape := ⟨2, ![5000, 128]⟩
abbrev S5000x1 : Shape := ⟨2, ![5000, 1]⟩
abbrev S800000x128 : Shape := ⟨2, ![800000, 128]⟩
abbrev S50000x64 : Shape := ⟨2, ![50000, 64]⟩
abbrev S5000x64 : Shape := ⟨2, ![5000, 64]⟩

abbrev nBuf : Space → Nat
  | .hbm => 97
  | .vmem => 56
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .i1⟩
  | .hbm, ⟨36, _⟩ => ⟨S_, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x1, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x64, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x128, .f32⟩
  | .hbm, ⟨91, _⟩ => ⟨S_, .f32⟩
  | .hbm, ⟨92, _⟩ => ⟨S50000x128, .f32⟩
  | .hbm, ⟨93, _⟩ => ⟨S800000x1, .i32⟩
  | .hbm, ⟨94, _⟩ => ⟨S50000x128, .f32⟩
  | .hbm, ⟨95, _⟩ => ⟨S50000x128, .f32⟩
  | .hbm, ⟨96, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x1, .f32⟩
  | .local _ .vmem, ⟨23, _⟩ => ⟨S5000x1, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x1, .f32⟩
  | .local _ .vmem, ⟨37, _⟩ => ⟨S5000x1, .f32⟩
  | .local _ .vmem, ⟨38, _⟩ => ⟨S128x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x1, .f32⟩
  | .local _ .vmem, ⟨44, _⟩ => ⟨S5000x1, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S128x64, .f32⟩
  | .local _ .vmem, ⟨53, _⟩ => ⟨S1x64, .f32⟩
  | .local _ .vmem, ⟨54, _⟩ => ⟨S5000x64, .f32⟩
  | .local _ .vmem, ⟨55, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v9 : Ref sig .tc := ⟨.hbm, 29, rfl⟩
abbrev main_cst_4 : Ref sig .tc := ⟨.hbm, 30, rfl⟩
abbrev main_v10 : Ref sig .tc := ⟨.hbm, 31, rfl⟩
abbrev main_v11 : Ref sig .tc := ⟨.hbm, 32, rfl⟩
abbrev main_cst_5 : Ref sig .tc := ⟨.hbm, 33, rfl⟩
abbrev main_v12 : Ref sig .tc := ⟨.hbm, 34, rfl⟩
abbrev main_v13 : Ref sig .tc := ⟨.hbm, 35, rfl⟩
abbrev main_cst_6 : Ref sig .tc := ⟨.hbm, 36, rfl⟩
abbrev main_call1_v0 : Ref sig .tc := ⟨.hbm, 37, rfl⟩
abbrev main_call1_v1 : Ref sig .tc := ⟨.hbm, 38, rfl⟩
abbrev main_v14 : Ref sig .tc := ⟨.hbm, 39, rfl⟩
abbrev main_cst_7 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c : Ref sig .tc := ⟨.hbm, 52, rfl⟩
abbrev main_v26 : Ref sig .tc := ⟨.hbm, 53, rfl⟩
abbrev main_v27 : Ref sig .tc := ⟨.hbm, 54, rfl⟩
abbrev main_c_8 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_9 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_10 : Ref sig .tc := ⟨.hbm, 67, rfl⟩
abbrev main_v38 : Ref sig .tc := ⟨.hbm, 68, rfl⟩
abbrev main_v39 : Ref sig .tc := ⟨.hbm, 69, rfl⟩
abbrev main_c_11 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_12 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_13 : Ref sig .tc := ⟨.hbm, 82, rfl⟩
abbrev main_v50 : Ref sig .tc := ⟨.hbm, 83, rfl⟩
abbrev main_v51 : Ref sig .tc := ⟨.hbm, 84, rfl⟩
abbrev main_c_14 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_15 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc6_stg4_0 : Ref sig .tc := ⟨.vmem, 48, rfl⟩
abbrev cc6_stg4_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem3_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem3_0 : DmaSem sig := 46
abbrev cc6_sem3_1 : DmaSem sig := 47
abbrev cc6_sem4_0 : DmaSem sig := 48
abbrev cc6_sem4_1 : DmaSem sig := 49
abbrev cc7_sem0_0 : DmaSem sig := 50
abbrev cc7_sem0_1 : DmaSem sig := 51
abbrev cc7_sem1_0 : DmaSem sig := 52
abbrev cc7_sem2_0 : DmaSem sig := 53
abbrev cc7_sem3_0 : DmaSem sig := 54
abbrev cc7_sem3_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S64_S1x64_1 : S64.BroadcastsInDim S1x64 (![1] : Fin 1 → Fin S1x64.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S50000x1.size a
  hwx6_1 : ∀ i : grid6.Coords, EltTy.bits .f32 = 32 ∨ (Rect.block (s := S50000x1) S5000x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S50000x128.size a
  hwx6_4 : ∀ i : grid6.Coords, EltTy.bits .f32 = 32 ∨ (Rect.block (s := S50000x128) S5000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S50000x64.size a
  hwx7_3 : ∀ i : grid7.Coords, EltTy.bits .f32 = 32 ∨ (Rect.block (s := S50000x64) S5000x64.size (cc7_transform_3 i) (hinb7_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v36) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v47) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v18) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v20) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v48) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v17) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v49) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v59) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v18) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v21) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v24) S5000x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v60) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v60) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v23) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v61) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S1x128 : Shape := ⟨2, ![1, 128]⟩
abbrev S50000x1 : Shape := ⟨2, ![50000, 1]⟩
abbrev S800000x128 : Shape := ⟨2, ![800000, 128]⟩
abbrev S50000x64 : Shape := ⟨2, ![50000, 64]⟩
abbrev S1x64 : Shape := ⟨2, ![1, 64]⟩

abbrev nBuf : Space → Nat
  | .hbm => 130
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x64, .f32⟩
  | 12 => ⟨S64, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S_, .f32⟩
  | 28 => ⟨S50000, .f32⟩
  | 29 => ⟨S50000, .f32⟩
  | 30 => ⟨S_, .f32⟩
  | 31 => ⟨S50000, .f32⟩
  | 32 => ⟨S50000, .f32⟩
  | 33 => ⟨S_, .f32⟩
  | 34 => ⟨S50000, .f32⟩
  | 35 => ⟨S50000, .i1⟩
  | 36 => ⟨S_, .f32⟩
  | 37 => ⟨S_, .f32⟩
  | 38 => ⟨S50000, .f32⟩
  | 39 => ⟨S50000, .f32⟩
  | 40 => ⟨S_, .f32⟩
  | 41 => ⟨S50000, .f32⟩
  | 42 => ⟨S50000, .f32⟩
  | 43 => ⟨S50000x128, .f32⟩
  | 44 => ⟨S1x128, .f32⟩
  | 45 => ⟨S50000x128, .f32⟩
  | 46 => ⟨S50000x128, .f32⟩
  | 47 => ⟨S50000x1, .f32⟩
  | 48 => ⟨S50000x128, .f32⟩
  | 49 => ⟨S50000x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000x1, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x1, .f32⟩
  | 74 => ⟨S50000x128, .f32⟩
  | 75 => ⟨S50000x128, .f32⟩
  | 76 => ⟨S50000x128, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S50000x1, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x1, .f32⟩
  | 100 => ⟨S50000x128, .f32⟩
  | 101 => ⟨S50000x128, .f32⟩
  | 102 => ⟨S50000x128, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x128, .f32⟩
  | 112 => ⟨S_, .f32⟩
  | 113 => ⟨S50000x128, .f32⟩
  | 114 => ⟨S800000x1, .i32⟩
  | 115 => ⟨S50000x128, .f32⟩
  | 116 => ⟨S50000x1, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S50000x64, .f32⟩
  | 127 => ⟨S1x64, .f32⟩
  | _ => ⟨S50000x128, .f32⟩

abbrev hbmTy0_1 (i : Nat) : BufTy := match i % 128 with
  | 0 => ⟨S50000x64, .f32⟩
  | 1 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v9 : Ref sig .tc := ⟨.hbm, 29, rfl⟩
abbrev main_cst_4 : Ref sig .tc := ⟨.hbm, 30, rfl⟩
abbrev main_v10 : Ref sig .tc := ⟨.hbm, 31, rfl⟩
abbrev main_v11 : Ref sig .tc := ⟨.hbm, 32, rfl⟩
abbrev main_cst_5 : Ref sig .tc := ⟨.hbm, 33, rfl⟩
abbrev main_v12 : Ref sig .tc := ⟨.hbm, 34, rfl⟩
abbrev main_v13 : Ref sig .tc := ⟨.hbm, 35, rfl⟩
abbrev main_cst_6 : Ref sig .tc := ⟨.hbm, 36, rfl⟩
abbrev main_call1_v0 : Ref sig .tc := ⟨.hbm, 37, rfl⟩
abbrev main_call1_v1 : Ref sig .tc := ⟨.hbm, 38, rfl⟩
abbrev main_v14 : Ref sig .tc := ⟨.hbm, 39, rfl⟩
abbrev main_cst_7 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c : Ref sig .tc := ⟨.hbm, 51, rfl⟩
abbrev main_v25 : Ref sig .tc := ⟨.hbm, 52, rfl⟩
abbrev main_v26 : Ref sig .tc := ⟨.hbm, 53, rfl⟩
abbrev main_c_8 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_9 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_call2_cst : Ref sig .tc := ⟨.hbm, 70, rfl⟩
abbrev main_call2_v0 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_c_10 : Ref sig .tc := ⟨.hbm, 77, rfl⟩
abbrev main_v46 : Ref sig .tc := ⟨.hbm, 78, rfl⟩
abbrev main_v47 : Ref sig .tc := ⟨.hbm, 79, rfl⟩
abbrev main_c_11 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_12 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_call3_cst : Ref sig .tc := ⟨.hbm, 96, rfl⟩
abbrev main_call3_v0 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_13 : Ref sig .tc := ⟨.hbm, 103, rfl⟩
abbrev main_v67 : Ref sig .tc := ⟨.hbm, 104, rfl⟩
abbrev main_v68 : Ref sig .tc := ⟨.hbm, 105, rfl⟩
abbrev main_c_14 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_15 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_call4_cst : Ref sig .tc := ⟨.hbm, 123, rfl⟩
abbrev main_call4_v0 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.LibHostDot.lean ====
/-
  A plain rows-by-columns matrix product computed by the host, read at coordinates, over the extended reals.

  The left operand is contracted on its columns and the right on its rows, with no batch axis. At (p, q) the product
  is the sum over the shared axis of the products of row p of the left operand and column q of the right: nothing
  is rounded and no order of summation is left in it.
-/
import proofs.«154122_j45311904973171_1_alg».proof.Proof.LibPlainMatmul

noncomputable section

namespace Cert.LibHostDot

open Idealize.ShloMosaic Idealize.ShloMosaic.ValueIdx Cert.LibPlainMatmul
open scoped BigOperators

/-- A plain m × k by k × n host product reads, at (p, q), the sum over the shared axis of the products of row p of the
    left operand and column q of the right. -/
theorem dotGeneral_plain {m k n : Nat}
    (wf : DotDims.WF (⟨2, ![m, k]⟩ : Shape) ⟨2, ![k, n]⟩ ⟨2, ![m, n]⟩ [1] [0] [0] [1] [] [])
    {φ₁ φ₂ : FTy} (sched : HostSchedule) (l : FVec Ideal ⟨2, ![m, k]⟩ φ₁) (r : FVec Ideal ⟨2, ![k, n]⟩ φ₂)
    (p : Fin m) (q : Fin n) :
    FloatOps.dotGeneral (plainDims wf) none sched l r (ix2 p q) = ∑ c : Fin k, l (ix2 p c) * r (ix2 c q) := by
  rw [Ideal.dotGeneral_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end Cert.LibHostDot

end
-- ==== Proof.Stages.lean ====
/-
  The layers of a three-layer graph convolution with a residual head, as whole-array functions, and each layer read
  at a row and a column over the extended reals.

  With `n` nodes and feature width 128: a dense layer is `X · W + b` (the bias a row added to every row); the
  message layer is `(X scaled row by row by a column d) · W`; the update layer is `max (A scaled row by row by d + b, 0)`,
  with or without a residual array added before the maximum. Between the message layer and the update layer sits the
  neighbourhood sum: the rows of the messages gathered by each edge's source node and added into the row of its
  destination node. The column `d` is the inverse square root of each node's edge count, a node without edges counted once.

  A matrix product read at (p, q) is the sum over the shared axis of the products of row p of the left factor and
  column q of the right; nothing is rounded and no order of summation is left in it.
-/
import proofs.«154122_j45311904973171_1_alg».proof.ReferenceIdeal
import proofs.«154122_j45311904973171_1_alg».proof.Proof.LibHostDot
import Idealize.ShloMosaic.Lib.ValueIdx
import Idealize.ShloMosaic.Lib.Pipeline.Value
import Idealize.ShloMosaic.PureOps.Ideal.Laws

noncomputable section

namespace Cert.Stages

open Idealize.ShloMosaic Idealize.ShloMosaic.ValueIdx Cert.ReferenceIdeal Cert.ReferenceIdeal.Facts₀
open scoped BigOperators

variable [Cert.ReferenceIdeal.Facts]
variable {F : FTy → Type} [FloatOps F]

/-! ## The layers as whole-array functions -/

/-- A bias vector as a one-row matrix. -/
def row128 (b : (⟨S128, .f32⟩ : BufTy).Contents (Elt F)) : (⟨S1x128, .f32⟩ : BufTy).Contents (Elt F) :=
  broadcastInDim S1x128 ![1] bcast_S128_S1x128_1 b

/-- A bias vector of the output width as a one-row matrix. -/
def row64 (b : (⟨S64, .f32⟩ : BufTy).Contents (Elt F)) : (⟨S1x64, .f32⟩ : BufTy).Contents (Elt F) :=
  broadcastInDim S1x64 ![1] bcast_S64_S1x64_1 b

/-- The all-zero matrix the update layer takes its maximum against. -/
def zeros : (⟨S50000x128, .f32⟩ : BufTy).Contents (Elt F) :=
  broadcastInDim S50000x128 ![] bcast_S_S50000x128 (constant (F := F) S_ .f32 0x00000000#32)

/-- The dense layer `X · W + b`, the bias row added to every row. -/
def lin (X : (⟨S50000x128, .f32⟩ : BufTy).Contents (Elt F)) (W : (⟨S128x128, .f32⟩ : BufTy).Contents (Elt F)) (brow : (⟨S1x128, .f32⟩ : BufTy).Contents (Elt F)) : (⟨S50000x128, .f32⟩ : BufTy).Contents (Elt F) :=
  addf (Host.dotGeneral dot_S50000x128_S128x128_S50000x128_1_0_0_1_n_n none X W) (broadcastInDim S50000x128 ![0, 1] bcast_S1x128_S50000x128_0_1 brow)

/-- The output layer `X · W + b` into the output width. -/
def lin64 (X : (⟨S50000x128, .f32⟩ : BufTy).Contents (Elt F)) (W : (⟨S128x64, .f32⟩ : BufTy).Contents (Elt F)) (brow : (⟨S1x64, .f32⟩ : BufTy).Contents (Elt F)) : (⟨S50000x64, .f32⟩ : BufTy).Contents (Elt F) :=
  addf (Host.dotGeneral dot_S50000x128_S128x64_S50000x64_1_0_0_1_n_n none X W) (broadcastInDim S50000x64 ![0, 1] bcast_S1x64_S50000x64_0_1 brow)

/-- The message layer: every row of `X` scaled by its entry of the column `d`, then multiplied by `W`. -/
def preAgg (X : (⟨S50000x128, .f32⟩ : BufTy).Contents (Elt F)) (d : (⟨S50000x1, .f32⟩ : BufTy).Contents (Elt F)) (W : (⟨S128x128, .f32⟩ : BufTy).Contents (Elt F)) : (⟨S50000x128, .f32⟩ : BufTy).Contents (Elt F) :=
  Host.dotGeneral dot_S50000x128_S128x128_S50000x128_1_0_0_1_n_n none (mulf X (broadcastInDim S50000x128 ![0, 1] bcast_S50000x1_S50000x128_0_1 d)) W

/-- The update layer: every row of `A` scaled by its entry of `d`, the bias row added, negative entries cut to zero. -/
def postAgg (A : (⟨S50000x128, .f32⟩ : BufTy).Contents (Elt F)) (d : (⟨S50000x1, .f32⟩ : BufTy).Contents (Elt F)) (brow : (⟨S1x128, .f32⟩ : BufTy).Contents (Elt F)) : (⟨S50000x128, .f32⟩ : BufTy).Contents (Elt F) :=
  maximumf (addf (mulf A (broadcastInDim S50000x128 ![0, 1] bcast_S50000x1_S50000x128_0_1 d)) (broadcastInDim S50000x128 ![0, 1] bcast_S1x128_S50000x128_0_1 brow)) (zeros (F := F))

/-- The last update layer: as `postAgg`, with the residual array `R` added before the cut. -/
def postAggRes (A : (⟨S50000x128, .f32⟩ : BufTy).Contents (Elt F)) (d : (⟨S50000x1, .f32⟩ : BufTy).Contents (Elt F)) (brow : (⟨S1x128, .f32⟩ : BufTy).Contents (Elt F)) (R : (⟨S50000x128, .f32⟩ : BufTy).Contents (Elt F)) : (⟨S50000x128, .f32⟩ : BufTy).Contents (Elt F) :=
  maximumf (addf (addf (mulf A (broadcastInDim S50000x128 ![0, 1] bcast_S50000x1_S50000x128_0_1 d)) (broadcastInDim S50000x128 ![0, 1] bcast_S1x128_S50000x128_0_1 brow)) R) (zeros (F := F))

/-- Each node's number of edge ends named by `idx`: ones added into a zero vector at the named nodes. -/
def degree (idx : (⟨S800000, .i32⟩ : BufTy).Contents (Elt F)) : (⟨S50000, .f32⟩ : BufTy).Contents (Elt F) :=
  Host.scatterAdd scatter_S50000_S800000x1_S800000_n_0_0_1 (broadcastInDim S50000 ![] bcast_S_S50000 (constant (F := F) S_ .f32 0x00000000#32)) (broadcastInDim S800000x1 ![0] bcast_S800000_S800000x1_0 idx) (broadcastInDim S800000 ![] bcast_S_S800000 (constant (F := F) S_ .f32 0x3F800000#32))

/-- The scaling column: each node's edge count, a count of zero replaced by one, to the power −1/2. -/
def normCol (idx : (⟨S800000, .i32⟩ : BufTy).Contents (Elt F)) : (⟨S50000x1, .f32⟩ : BufTy).Contents (Elt F) :=
  broadcastInDim S50000x1 ![0] bcast_S50000_S50000x1_0 (Host.powf (select (cmpf .ogt (degree (F := F) idx) (broadcastInDim S50000 ![] bcast_S_S50000 (constant (F := F) S_ .f32 0x00000000#32))) (degree (F := F) idx) (broadcastInDim S50000 ![] bcast_S_S50000 (id (constant (F := F) S_ .f32 0x3F800000#32)))) (broadcastInDim S50000 ![] bcast_S_S50000 (constant (F := F) S_ .f32 0xBF000000#32)))

/-- The neighbourhood sum: row `src e` of `H` (a negative index counted from the end) added into row `dst e`, over all edges `e`. -/
def aggregate (H : (⟨S50000x128, .f32⟩ : BufTy).Contents (Elt F)) (src dst : (⟨S800000, .i32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 dst) (Host.gather gather_S50000x128_S800000x1_S800000x128_1_0_n_n_0_1_1128 H (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

/-- The whole network: three message / neighbourhood-sum / update rounds, the last with the residual `x · Wr + br`, then the output layer. -/
def forward (x : (⟨S50000x128, .f32⟩ : BufTy).Contents (Elt F)) (src dst : (⟨S800000, .i32⟩ : BufTy).Contents (Elt F)) (W1 : (⟨S128x128, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F))
    (W3 : (⟨S128x128, .f32⟩ : BufTy).Contents (Elt F)) (b3 : (⟨S128, .f32⟩ : BufTy).Contents (Elt F)) (Wr : (⟨S128x128, .f32⟩ : BufTy).Contents (Elt F)) (br : (⟨S128, .f32⟩ : BufTy).Contents (Elt F)) (Wo : (⟨S128x64, .f32⟩ : BufTy).Contents (Elt F)) (bo : (⟨S64, .f32⟩ : BufTy).Contents (Elt F)) : (⟨S50000x64, .f32⟩ : BufTy).Contents (Elt F) :=
  lin64 (postAggRes (aggregate (preAgg (postAgg (aggregate (preAgg (postAgg (aggregate (preAgg x (normCol src) W1) src dst) (normCol dst) (row128 b1)) (normCol src) W2) src dst) (normCol dst) (row128 b2)) (normCol src) W3) src dst) (normCol dst) (row128 b3) (lin x Wr (row128 br))) Wo (row64 bo)

/-! ## The layers read at a row and a column, over the extended reals -/

/-- A column spread over 128 columns reads, at (p, q), its entry of row p. -/
theorem spreadCol_apply (d : (⟨S50000x1, .f32⟩ : BufTy).Contents (Elt Ideal)) (p : Fin 50000) (q : Fin 128) :
    broadcastInDim S50000x128 ![0, 1] bcast_S50000x1_S50000x128_0_1 d (ix2 p q) = d (ix2 p (0 : Fin 1)) :=
  broadcastInDim_apply _ bcast_S50000x1_S50000x128_0_1 d (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])

/-- A row spread over all rows reads, at (p, q), its entry of column q. -/
theorem spreadRow_apply (b : (⟨S1x128, .f32⟩ : BufTy).Contents (Elt Ideal)) (p : Fin 50000) (q : Fin 128) :
    broadcastInDim S50000x128 ![0, 1] bcast_S1x128_S50000x128_0_1 b (ix2 p q) = b (ix2 (0 : Fin 1) q) :=
  broadcastInDim_apply _ bcast_S1x128_S50000x128_0_1 b (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- A row of the output width spread over all rows reads, at (p, q), its entry of column q. -/
theorem spreadRow64_apply (b : (⟨S1x64, .f32⟩ : BufTy).Contents (Elt Ideal)) (p : Fin 50000) (q : Fin 64) :
    broadcastInDim S50000x64 ![0, 1] bcast_S1x64_S50000x64_0_1 b (ix2 p q) = b (ix2 (0 : Fin 1) q) :=
  broadcastInDim_apply _ bcast_S1x64_S50000x64_0_1 b (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

theorem lin_apply (X : (⟨S50000x128, .f32⟩ : BufTy).Contents (Elt Ideal)) (W : (⟨S128x128, .f32⟩ : BufTy).Contents (Elt Ideal)) (brow : (⟨S1x128, .f32⟩ : BufTy).Contents (Elt Ideal)) (p : Fin 50000) (q : Fin 128) :
    lin (F := Ideal) X W brow (ix2 p q) = (∑ k : Fin 128, X (ix2 p k) * W (ix2 k q)) + brow (ix2 (0 : Fin 1) q) := by
  unfold lin
  rw [addf_apply, spreadRow_apply]
  exact congrArg (· + brow (ix2 (0 : Fin 1) q)) (by simp only [Host.dotGeneral]; exact Cert.LibHostDot.dotGeneral_plain _ _ X W p q)

theorem lin64_apply (X : (⟨S50000x128, .f32⟩ : BufTy).Contents (Elt Ideal)) (W : (⟨S128x64, .f32⟩ : BufTy).Contents (Elt Ideal)) (brow : (⟨S1x64, .f32⟩ : BufTy).Contents (Elt Ideal)) (p : Fin 50000) (q : Fin 64) :
    lin64 (F := Ideal) X W brow (ix2 p q) = (∑ k : Fin 128, X (ix2 p k) * W (ix2 k q)) + brow (ix2 (0 : Fin 1) q) := by
  unfold lin64
  rw [addf_apply, spreadRow64_apply]
  exact congrArg (· + brow (ix2 (0 : Fin 1) q)) (by simp only [Host.dotGeneral]; exact Cert.LibHostDot.dotGeneral_plain _ _ X W p q)

theorem preAgg_apply (X : (⟨S50000x128, .f32⟩ : BufTy).Contents (Elt Ideal)) (d : (⟨S50000x1, .f32⟩ : BufTy).Contents (Elt Ideal)) (W : (⟨S128x128, .f32⟩ : BufTy).Contents (Elt Ideal)) (p : Fin 50000) (q : Fin 128) :
    preAgg (F := Ideal) X d W (ix2 p q) = ∑ k : Fin 128, (X (ix2 p k) * d (ix2 p (0 : Fin 1))) * W (ix2 k q) := by
  unfold preAgg
  simp only [Host.dotGeneral]
  refine (Cert.LibHostDot.dotGeneral_plain _ _ _ W p q).trans ?_
  refine Finset.sum_congr rfl fun k _ => ?_
  rw [mulf_apply, spreadCol_apply]

theorem zeros_apply (i : S50000x128.Idx) : zeros (F := Ideal) i = Ideal.ofBits .f32 0x00000000#32 := rfl

theorem postAgg_apply (A : (⟨S50000x128, .f32⟩ : BufTy).Contents (Elt Ideal)) (d : (⟨S50000x1, .f32⟩ : BufTy).Contents (Elt Ideal)) (brow : (⟨S1x128, .f32⟩ : BufTy).Contents (Elt Ideal)) (p : Fin 50000) (q : Fin 128) :
    postAgg (F := Ideal) A d brow (ix2 p q) = max (A (ix2 p q) * d (ix2 p (0 : Fin 1)) + brow (ix2 (0 : Fin 1) q)) (Ideal.ofBits .f32 0x00000000#32) := by
  unfold postAgg
  rw [maximumf_apply, addf_apply, mulf_apply, spreadCol_apply, spreadRow_apply, zeros_apply]

theorem postAggRes_apply (A : (⟨S50000x128, .f32⟩ : BufTy).Contents (Elt Ideal)) (d : (⟨S50000x1, .f32⟩ : BufTy).Contents (Elt Ideal)) (brow : (⟨S1x128, .f32⟩ : BufTy).Contents (Elt Ideal)) (R : (⟨S50000x128, .f32⟩ : BufTy).Contents (Elt Ideal)) (p : Fin 50000) (q : Fin 128) :
    postAggRes (F := Ideal) A d brow R (ix2 p q) = max ((A (ix2 p q) * d (ix2 p (0 : Fin 1)) + brow (ix2 (0 : Fin 1) q)) + R (ix2 p q)) (Ideal.ofBits .f32 0x00000000#32) := by
  unfold postAggRes
  rw [maximumf_apply, addf_apply, addf_apply, mulf_apply, spreadCol_apply, spreadRow_apply, zeros_apply]

end Cert.Stages

end
-- ==== Proof.RefRun.lean ====
/-
  The reference program's run, read back: @main is a straight line of host operations, so every weakly fair execution
  terminates with its result buffer at the operations' composed term of the argument arrays, and the arguments
  unchanged. That composed term is the network of `Cert.Stages.forward`: three rounds of message layer, neighbourhood
  sum and update layer between the scaling columns of the two edge-end lists, the residual dense layer added in the
  last round, and the output layer.
-/
import proofs.«154122_j45311904973171_1_alg».proof.Proof.Gen.ReferenceIdeal
import proofs.«154122_j45311904973171_1_alg».proof.Proof.Stages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 117 operations, in order (a called function's operations stand in its call's place, spelt `TRef.…`). -/
abbrev ops : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg1 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    unary main_arg2 main_v5 (broadcastInDim S800000x1 ![0] bcast_S800000_S800000x1_0 : (⟨S800000, .i32⟩ : BufTy).Contents (Elt F) → (⟨S800000x1, .i32⟩ : BufTy).Contents (Elt F)),
    ternary main_v4 main_v5 main_v0 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x00000000#32),
    unary main_cst_2 main_v7 (broadcastInDim S50000 ![] bcast_S_S50000 : (⟨S_, .f32⟩ : BufTy).Contents (Elt F) → (⟨S50000, .f32⟩ : BufTy).Contents (Elt F)),
    binary main_v3 main_v7 main_v8 (cmpf .ogt : (⟨S50000, .f32⟩ : BufTy).Contents (Elt F) → (⟨S50000, .f32⟩ : BufTy).Contents (Elt F) → (⟨S50000, .i1⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v8) (TRef.of (T := ⟨S50000, .f32⟩) main_v3) (TRef.of (T := ⟨S50000, .f32⟩) main_call0_v1) (TRef.of (T := ⟨S50000, .f32⟩) main_v9) select,
    nullary main_cst_4 (constant S_ .f32 0xBF000000#32),
    unary main_cst_4 main_v10 (broadcastInDim S50000 ![] bcast_S_S50000 : (⟨S_, .f32⟩ : BufTy).Contents (Elt F) → (⟨S50000, .f32⟩ : BufTy).Contents (Elt F)),
    binary main_v9 main_v10 main_v11 (Host.powf : (⟨S50000, .f32⟩ : BufTy).Contents (Elt F) → (⟨S50000, .f32⟩ : BufTy).Contents (Elt F) → (⟨S50000, .f32⟩ : BufTy).Contents (Elt F)),
    nullary main_cst_5 (constant S_ .f32 0x00000000#32),
    unary main_cst_5 main_v12 (broadcastInDim S50000 ![] bcast_S_S50000 : (⟨S_, .f32⟩ : BufTy).Contents (Elt F) → (⟨S50000, .f32⟩ : BufTy).Contents (Elt F)),
    binary main_v6 main_v12 main_v13 (cmpf .ogt : (⟨S50000, .f32⟩ : BufTy).Contents (Elt F) → (⟨S50000, .f32⟩ : BufTy).Contents (Elt F) → (⟨S50000, .i1⟩ : BufTy).Contents (Elt F)),
    nullary main_cst_6 (constant S_ .f32 0x3F800000#32),
    TRef.unary (TRef.of (T := ⟨S_, .f32⟩) main_cst_6) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v13) (TRef.of (T := ⟨S50000, .f32⟩) main_v6) (TRef.of (T := ⟨S50000, .f32⟩) main_call1_v1) (TRef.of (T := ⟨S50000, .f32⟩) main_v14) select,
    nullary main_cst_7 (constant S_ .f32 0xBF000000#32),
    unary main_cst_7 main_v15 (broadcastInDim S50000 ![] bcast_S_S50000 : (⟨S_, .f32⟩ : BufTy).Contents (Elt F) → (⟨S50000, .f32⟩ : BufTy).Contents (Elt F)),
    binary main_v14 main_v15 main_v16 (Host.powf : (⟨S50000, .f32⟩ : BufTy).Contents (Elt F) → (⟨S50000, .f32⟩ : BufTy).Contents (Elt F) → (⟨S50000, .f32⟩ : BufTy).Contents (Elt F)),
    binary main_arg0 main_arg9 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v18 (broadcastInDim S1x128 ![1] bcast_S128_S1x128_1 : (⟨S128, .f32⟩ : BufTy).Contents (Elt F) → (⟨S1x128, .f32⟩ : BufTy).Contents (Elt F)),
    unary main_v18 main_v19 (broadcastInDim S50000x128 ![0, 1] bcast_S1x128_S50000x128_0_1 : (⟨S1x128, .f32⟩ : BufTy).Contents (Elt F) → (⟨S50000x128, .f32⟩ : BufTy).Contents (Elt F)),
    binary main_v17 main_v19 main_v20 (addf : (⟨S50000x128, .f32⟩ : BufTy).Contents (Elt F) → (⟨S50000x128, .f32⟩ : BufTy).Contents (Elt F) → (⟨S50000x128, .f32⟩ : BufTy).Contents (Elt F)),
    unary main_v11 main_v21 (broadcastInDim S50000x1 ![0] bcast_S50000_S50000x1_0 : (⟨S50000, .f32⟩ : BufTy).Contents (Elt F) → (⟨S50000x1, .f32⟩ : BufTy).Contents (Elt F)),
    unary main_v21 main_v22 (broadcastInDim S50000x128 ![0, 1] bcast_S50000x1_S50000x128_0_1 : (⟨S50000x1, .f32⟩ : BufTy).Contents (Elt F) → (⟨S50000x128, .f32⟩ : BufTy).Contents (Elt F)),
    binary main_arg0 main_v22 main_v23 (mulf : (⟨S50000x128, .f32⟩ : BufTy).Contents (Elt F) → (⟨S50000x128, .f32⟩ : BufTy).Contents (Elt F) → (⟨S50000x128, .f32⟩ : BufTy).Contents (Elt F)),
    binary main_v23 main_arg3 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c (constantI S_ 32 0#32),
    unary main_c main_v25 (broadcastInDim S800000 ![] bcast_S_S800000 : (⟨S_, .i32⟩ : BufTy).Contents (Elt F) → (⟨S800000, .i32⟩ : BufTy).Contents (Elt F)),
    binary main_arg1 main_v25 main_v26 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v27 (broadcastInDim S800000 ![] bcast_S_S800000 : (⟨S_, .i32⟩ : BufTy).Contents (Elt F) → (⟨S800000, .i32⟩ : BufTy).Contents (Elt F)),
    binary main_arg1 main_v27 main_v28 (addi : (⟨S800000, .i32⟩ : BufTy).Contents (Elt F) → (⟨S800000, .i32⟩ : BufTy).Contents (Elt F) → (⟨S800000, .i32⟩ : BufTy).Contents (Elt F)),
    ternary main_v26 main_v28 main_arg1 main_v29 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v29 main_v30 (broadcastInDim S800000x1 ![0] bcast_S800000_S800000x1_0 : (⟨S800000, .i32⟩ : BufTy).Contents (Elt F) → (⟨S800000x1, .i32⟩ : BufTy).Contents (Elt F)),
    binary main_v24 main_v30 main_v31 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_9 (constant S_ .f32 0x00000000#32),
    unary main_cst_9 main_v32 (broadcastInDim S50000x128 ![] bcast_S_S50000x128 : (⟨S_, .f32⟩ : BufTy).Contents (Elt F) → (⟨S50000x128, .f32⟩ : BufTy).Contents (Elt F)),
    unary main_arg2 main_v33 (broadcastInDim S800000x1 ![0] bcast_S800000_S800000x1_0 : (⟨S800000, .i32⟩ : BufTy).Contents (Elt F) → (⟨S800000x1, .i32⟩ : BufTy).Contents (Elt F)),
    ternary main_v32 main_v33 main_v31 main_v34 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v16 main_v35 (broadcastInDim S50000x1 ![0] bcast_S50000_S50000x1_0 : (⟨S50000, .f32⟩ : BufTy).Contents (Elt F) → (⟨S50000x1, .f32⟩ : BufTy).Contents (Elt F)),
    unary main_v35 main_v36 (broadcastInDim S50000x128 ![0, 1] bcast_S50000x1_S50000x128_0_1 : (⟨S50000x1, .f32⟩ : BufTy).Contents (Elt F) → (⟨S50000x128, .f32⟩ : BufTy).Contents (Elt F)),
    binary main_v34 main_v36 main_v37 (mulf : (⟨S50000x128, .f32⟩ : BufTy).Contents (Elt F) → (⟨S50000x128, .f32⟩ : BufTy).Contents (Elt F) → (⟨S50000x128, .f32⟩ : BufTy).Contents (Elt F)),
    unary main_arg4 main_v38 (broadcastInDim S1x128 ![1] bcast_S128_S1x128_1 : (⟨S128, .f32⟩ : BufTy).Contents (Elt F) → (⟨S1x128, .f32⟩ : BufTy).Contents (Elt F)),
    unary main_v38 main_v39 (broadcastInDim S50000x128 ![0, 1] bcast_S1x128_S50000x128_0_1 : (⟨S1x128, .f32⟩ : BufTy).Contents (Elt F) → (⟨S50000x128, .f32⟩ : BufTy).Contents (Elt F)),
    binary main_v37 main_v39 main_v40 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v40) (TRef.of (T := ⟨S50000x128, .f32⟩) main_call2_v0) (TRef.of (T := ⟨S50000x128, .f32⟩) main_v41) maximumf,
    unary main_v11 main_v42 (broadcastInDim S50000x1 ![0] bcast_S50000_S50000x1_0 : (⟨S50000, .f32⟩ : BufTy).Contents (Elt F) → (⟨S50000x1, .f32⟩ : BufTy).Contents (Elt F)),
    unary main_v42 main_v43 (broadcastInDim S50000x128 ![0, 1] bcast_S50000x1_S50000x128_0_1 : (⟨S50000x1, .f32⟩ : BufTy).Contents (Elt F) → (⟨S50000x128, .f32⟩ : BufTy).Contents (Elt F)),
    binary main_v41 main_v43 main_v44 (mulf : (⟨S50000x128, .f32⟩ : BufTy).Contents (Elt F) → (⟨S50000x128, .f32⟩ : BufTy).Contents (Elt F) → (⟨S50000x128, .f32⟩ : BufTy).Contents (Elt F)),
    binary main_v44 main_arg5 main_v45 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_10 (constantI S_ 32 0#32),
    unary main_c_10 main_v46 (broadcastInDim S800000 ![] bcast_S_S800000 : (⟨S_, .i32⟩ : BufTy).Contents (Elt F) → (⟨S800000, .i32⟩ : BufTy).Contents (Elt F)),
    binary main_arg1 main_v46 main_v47 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v48 (broadcastInDim S800000 ![] bcast_S_S800000 : (⟨S_, .i32⟩ : BufTy).Contents (Elt F) → (⟨S800000, .i32⟩ : BufTy).Contents (Elt F)),
    binary main_arg1 main_v48 main_v49 (addi : (⟨S800000, .i32⟩ : BufTy).Contents (Elt F) → (⟨S800000, .i32⟩ : BufTy).Contents (Elt F) → (⟨S800000, .i32⟩ : BufTy).Contents (Elt F)),
    ternary main_v47 main_v49 main_arg1 main_v50 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v50 main_v51 (broadcastInDim S800000x1 ![0] bcast_S800000_S800000x1_0 : (⟨S800000, .i32⟩ : BufTy).Contents (Elt F) → (⟨S800000x1, .i32⟩ : BufTy).Contents (Elt F)),
    binary main_v45 main_v51 main_v52 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_12 (constant S_ .f32 0x00000000#32),
    unary main_cst_12 main_v53 (broadcastInDim S50000x128 ![] bcast_S_S50000x128 : (⟨S_, .f32⟩ : BufTy).Contents (Elt F) → (⟨S50000x128, .f32⟩ : BufTy).Contents (Elt F)),
    unary main_arg2 main_v54 (broadcastInDim S800000x1 ![0] bcast_S800000_S800000x1_0 : (⟨S800000, .i32⟩ : BufTy).Contents (Elt F) → (⟨S800000x1, .i32⟩ : BufTy).Contents (Elt F)),
    ternary main_v53 main_v54 main_v52 main_v55 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v16 main_v56 (broadcastInDim S50000x1 ![0] bcast_S50000_S50000x1_0 : (⟨S50000, .f32⟩ : BufTy).Contents (Elt F) → (⟨S50000x1, .f32⟩ : BufTy).Contents (Elt F)),
    unary main_v56 main_v57 (broadcastInDim S50000x128 ![0, 1] bcast_S50000x1_S50000x128_0_1 : (⟨S50000x1, .f32⟩ : BufTy).Contents (Elt F) → (⟨S50000x128, .f32⟩ : BufTy).Contents (Elt F)),
    binary main_v55 main_v57 main_v58 (mulf : (⟨S50000x128, .f32⟩ : BufTy).Contents (Elt F) → (⟨S50000x128, .f32⟩ : BufTy).Contents (Elt F) → (⟨S50000x128, .f32⟩ : BufTy).Contents (Elt F)),
    unary main_arg6 main_v59 (broadcastInDim S1x128 ![1] bcast_S128_S1x128_1 : (⟨S128, .f32⟩ : BufTy).Contents (Elt F) → (⟨S1x128, .f32⟩ : BufTy).Contents (Elt F)),
    unary main_v59 main_v60 (broadcastInDim S50000x128 ![0, 1] bcast_S1x128_S50000x128_0_1 : (⟨S1x128, .f32⟩ : BufTy).Contents (Elt F) → (⟨S50000x128, .f32⟩ : BufTy).Contents (Elt F)),
    binary main_v58 main_v60 main_v61 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v61) (TRef.of (T := ⟨S50000x128, .f32⟩) main_call3_v0) (TRef.of (T := ⟨S50000x128, .f32⟩) main_v62) maximumf,
    unary main_v11 main_v63 (broadcastInDim S50000x1 ![0] bcast_S50000_S50000x1_0 : (⟨S50000, .f32⟩ : BufTy).Contents (Elt F) → (⟨S50000x1, .f32⟩ : BufTy).Contents (Elt F)),
    unary main_v63 main_v64 (broadcastInDim S50000x128 ![0, 1] bcast_S50000x1_S50000x128_0_1 : (⟨S50000x1, .f32⟩ : BufTy).Contents (Elt F) → (⟨S50000x128, .f32⟩ : BufTy).Contents (Elt F)),
    binary main_v62 main_v64 main_v65 (mulf : (⟨S50000x128, .f32⟩ : BufTy).Contents (Elt F) → (⟨S50000x128, .f32⟩ : BufTy).Contents (Elt F) → (⟨S50000x128, .f32⟩ : BufTy).Contents (Elt F)),
    binary main_v65 main_arg7 main_v66 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_13 (constantI S_ 32 0#32),
    unary main_c_13 main_v67 (broadcastInDim S800000 ![] bcast_S_S800000 : (⟨S_, .i32⟩ : BufTy).Contents (Elt F) → (⟨S800000, .i32⟩ : BufTy).Contents (Elt F)),
    binary main_arg1 main_v67 main_v68 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v69 (broadcastInDim S800000 ![] bcast_S_S800000 : (⟨S_, .i32⟩ : BufTy).Contents (Elt F) → (⟨S800000, .i32⟩ : BufTy).Contents (Elt F)),
    binary main_arg1 main_v69 main_v70 (addi : (⟨S800000, .i32⟩ : BufTy).Contents (Elt F) → (⟨S800000, .i32⟩ : BufTy).Contents (Elt F) → (⟨S800000, .i32⟩ : BufTy).Contents (Elt F)),
    ternary main_v68 main_v70 main_arg1 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v71 main_v72 (broadcastInDim S800000x1 ![0] bcast_S800000_S800000x1_0 : (⟨S800000, .i32⟩ : BufTy).Contents (Elt F) → (⟨S800000x1, .i32⟩ : BufTy).Contents (Elt F)),
    binary main_v66 main_v72 main_v73 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_15 (constant S_ .f32 0x00000000#32),
    unary main_cst_15 main_v74 (broadcastInDim S50000x128 ![] bcast_S_S50000x128 : (⟨S_, .f32⟩ : BufTy).Contents (Elt F) → (⟨S50000x128, .f32⟩ : BufTy).Contents (Elt F)),
    unary main_arg2 main_v75 (broadcastInDim S800000x1 ![0] bcast_S800000_S800000x1_0 : (⟨S800000, .i32⟩ : BufTy).Contents (Elt F) → (⟨S800000x1, .i32⟩ : BufTy).Contents (Elt F)),
    ternary main_v74 main_v75 main_v73 main_v76 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    unary main_v16 main_v77 (broadcastInDim S50000x1 ![0] bcast_S50000_S50000x1_0 : (⟨S50000, .f32⟩ : BufTy).Contents (Elt F) → (⟨S50000x1, .f32⟩ : BufTy).Contents (Elt F)),
    unary main_v77 main_v78 (broadcastInDim S50000x128 ![0, 1] bcast_S50000x1_S50000x128_0_1 : (⟨S50000x1, .f32⟩ : BufTy).Contents (Elt F) → (⟨S50000x128, .f32⟩ : BufTy).Contents (Elt F)),
    binary main_v76 main_v78 main_v79 (mulf : (⟨S50000x128, .f32⟩ : BufTy).Contents (Elt F) → (⟨S50000x128, .f32⟩ : BufTy).Contents (Elt F) → (⟨S50000x128, .f32⟩ : BufTy).Contents (Elt F)),
    unary main_arg8 main_v80 (broadcastInDim S1x128 ![1] bcast_S128_S1x128_1 : (⟨S128, .f32⟩ : BufTy).Contents (Elt F) → (⟨S1x128, .f32⟩ : BufTy).Contents (Elt F)),
    unary main_v80 main_v81 (broadcastInDim S50000x128 ![0, 1] bcast_S1x128_S50000x128_0_1 : (⟨S1x128, .f32⟩ : BufTy).Contents (Elt F) → (⟨S50000x128, .f32⟩ : BufTy).Contents (Elt F)),
    binary main_v79 main_v81 main_v82 (addf : (⟨S50000x128, .f32⟩ : BufTy).Contents (Elt F) → (⟨S50000x128, .f32⟩ : BufTy).Contents (Elt F) → (⟨S50000x128, .f32⟩ : BufTy).Contents (Elt F)),
    binary main_v82 main_v20 main_v83 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v83) (TRef.of (T := ⟨S50000x128, .f32⟩) main_call4_v0) (TRef.of (T := ⟨S50000x128, .f32⟩) main_v84) maximumf,
    binary main_v84 main_arg11 main_v85 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg12 main_v86 (broadcastInDim S1x64 ![1] bcast_S64_S1x64_1 : (⟨S64, .f32⟩ : BufTy).Contents (Elt F) → (⟨S1x64, .f32⟩ : BufTy).Contents (Elt F)),
    unary main_v86 main_v87 (broadcastInDim S50000x64 ![0, 1] bcast_S1x64_S50000x64_0_1 : (⟨S1x64, .f32⟩ : BufTy).Contents (Elt F) → (⟨S50000x64, .f32⟩ : BufTy).Contents (Elt F)),
    binary main_v85 main_v87 main_v88 (addf : (⟨S50000x64, .f32⟩ : BufTy).Contents (Elt F) → (⟨S50000x64, .f32⟩ : BufTy).Contents (Elt F) → (⟨S50000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., binary_bufs_sub .., nullary_bufs_sub .., unary_bufs_sub .., binary_bufs_sub .., binary_bufs_sub .., unary_bufs_sub .., unary_bufs_sub .., binary_bufs_sub ..⟩

/-- The network of the argument arrays as the launch memory holds them. -/
def result (m : (ℓ : Loc nD τ sig) → Buf (Elt F) ℓ) (c : Dev nD) : Buf (Elt F) ((c.tc : Thread nD τ).loc main_v88) :=
  Cert.Stages.forward (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

set_option maxRecDepth 8192 in
set_option maxHeartbeats 46800000 in
/-- On every device, from any memory with zero counters: every weakly fair execution of @main terminates with the
    result at the network of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v88).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl)⟩)
    (run_seq scopedRefs_eq scopedSems_eq defs main (fun _ => ops) main_eq (fun _ => ops_sub) m ρ)

end Cert.ReferenceIdeal.RefRun

end
-- ==== Proof.KernelRun.lean ====
/-
  The kernel program's run with its result named: every weakly fair execution of @main terminates, nothing faulting,
  with the argument arrays as launched and the result array at what the last segment boundary holds for it — the
  contents obtained by folding the host stretches' operations and the eight regions' write-backs from the launch memory.
-/
import proofs.«154122_j45311904973171_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The segments' launch, the last thread state read against the final state: the result array and every argument
    array at the last boundary's contents, the arguments' being the launch memory's. -/
theorem run_result : θ_run defs (onTc (τ := τ) (main (F := F))) ⟨m, fun _ => 0, ρ⟩ (fun r => ∀ c : Dev nD,
      r.2.mem ((c.tc : Thread nD τ).loc main_v61) = W16 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v61 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c)⟩)

end Cert.KernelIdeal.KernelRun

end
-- ==== Proof.RegionDense.lean ====
/-
  The dense layers of the network, region by region: the array a dense-layer region leaves behind is the whole-array
  dense layer `X · W + b` of the arrays the region finds.

  The region walks the rows in ten blocks of 5000. At a block it multiplies the block's rows with the whole weight
  matrix and adds the bias row to every row, so the entry it writes at row r of block t and column q is
  `∑ k, X (5000 t + r, k) · W (k, q) + b (0, q)`: the entry of `X · W + b` at row 5000 t + r. The ten blocks tile
  the rows, so after the last block the whole array is `X · W + b`.
-/
import proofs.«154122_j45311904973171_1_alg».proof.Proof.Gen.KernelIdeal.Frame
import proofs.«154122_j45311904973171_1_alg».proof.Proof.Gen.ReferenceIdeal
import proofs.«154122_j45311904973171_1_alg».proof.Proof.Stages
import proofs.«154122_j45311904973171_1_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (V : (c : Dev nD) → (b : Ref sig .tc) → Buf (Elt Ideal) ((c : Thread nD τ).loc b))

theorem zero_offset_dense : (![0, 0] : Fin 2 → Nat) = fun _ => 0 := funext fun a => by fin_cases a <;> rfl

/-! ## The first dense layer: width 128 -/

/-- What the body computes from its three blocks, read at row r and column q: the row of the left block times the
    column of the weight matrix, plus the bias row's entry of that column. -/
theorem dense128_apply (x0 : Vec Ideal S5000x128 .f32) (x1 : Vec Ideal S128x128 .f32) (x2 : Vec Ideal S1x128 .f32)
    (r : Fin 5000) (q : Fin 128) :
    k0_pay1 (F := Ideal) x0 x1 x2 (ix2 r q) = (∑ k : Fin 128, x0 (ix2 r k) * x1 (ix2 k q)) + x2 (ix2 (0 : Fin 1) q) := by
  unfold k0_pay1
  rw [addf_apply]
  refine congrArg₂ (· + ·) ?_ ?_
  · refine (Cert.LibPlainMatmul.matmul_zero_plain _ _ _ r q).trans ?_
    rfl
  · rw [shapeCast_self]
    exact broadcastTo_apply x2 _ (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)])

/-- The index maps, decided over the ten points: the row blocks follow the point, the weight matrix and the bias row
    stay whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the dense layer of the arrays the region finds. -/
theorem flushed0_eq (c : Dev nD) (t : Fin cfg0.N) :
    (dat0 (F := Ideal) V c).flushed 3 t
      = ((cfg0.win 3).blk t).view.read (Elt Ideal) (Cert.Stages.lin (V c main_arg0) (V c main_arg9) (V c main_v22)) := by
  show (cfg0.win 3).cut (grid0.coords t) ((dat0 V c).after 3 t) = _
  rw [after0_3]
  unfold out0_3
  rw [View.canon_unit_zero zero_offset_dense]
  simp only [View.ld_unit_zero (S := S5000x128) zero_offset_dense, View.ld_unit_zero (S := S128x128) zero_offset_dense, View.ld_unit_zero (S := S1x128) zero_offset_dense]
  obtain ⟨e0, e1, e2, e3, e4, e5, e6, e7⟩ := idx_facts0 t
  have ht : t.val < 10 := t.isLt
  refine funext fun (j : S5000x128.Idx) => ?_
  obtain ⟨r, q, rfl⟩ : ∃ (r : Fin 5000) (q : Fin 128), j = ix2 r q := ⟨j 0, j 1, eq_ix2 j⟩
  have hr : r.val < 5000 := r.isLt
  show k0_pay1 (F := Ideal) (iblk0 V c 0 t) (iblk0 V c 1 t) (iblk0 V c 2 t) (ix2 r q)
    = Cert.Stages.lin (V c main_arg0) (V c main_arg9) (V c main_v22) (((cfg0.win 3).blk t).view.emb (ix2 r q))
  refine (dense128_apply _ _ _ r q).trans ?_
  have hout : ((cfg0.win 3).blk t).view.emb (ix2 r q) = ix2 (⟨5000 * t.val + r.val, by omega⟩ : Fin 50000) q := by
    funext a; apply Fin.ext
    match a with
    | ⟨0, _⟩ => show win0_3.index t (0 : Fin 2) * 5000 + 1 * r.val = 5000 * t.val + r.val; omega
    | ⟨1, _⟩ => show win0_3.index t (1 : Fin 2) * 128 + 1 * q.val = q.val; omega
  rw [hout, Cert.Stages.lin_apply]
  refine congrArg₂ (· + ·) (Finset.sum_congr rfl fun k _ => congrArg₂ (· * ·) ?_ ?_) ?_
  · show V c main_arg0 (((cfg0.win 0).blk t).view.emb (ix2 r k)) = _
    refine congrArg (V c main_arg0) ?_
    funext a; apply Fin.ext
    match a with
    | ⟨0, _⟩ => show win0_0.index t (0 : Fin 2) * 5000 + 1 * r.val = 5000 * t.val + r.val; omega
    | ⟨1, _⟩ => show win0_0.index t (1 : Fin 2) * 128 + 1 * k.val = k.val; omega
  · show V c main_arg9 (((cfg0.win 1).blk t).view.emb (ix2 k q)) = _
    refine congrArg (V c main_arg9) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  · show V c main_v22 (((cfg0.win 2).blk t).view.emb (ix2 (0 : Fin 1) q)) = _
    refine congrArg (V c main_v22) ?_
    funext a; apply Fin.ext
    match a with
    | ⟨0, _⟩ => show win0_2.index t (0 : Fin 2) * 1 + 1 * 0 = 0; omega
    | ⟨1, _⟩ => show win0_2.index t (1 : Fin 2) * 128 + 1 * q.val = q.val; omega

/-- An index of the array is in point t's block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v24).slice (win0_3.rect t)).set ↔ _
  rw [View.set_slice_whole, Rect.mem_set_unit]
  exact Iff.rfl

/-- Every row lies in the block of the point its number divided by 5000 names, and every point writes its block back. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  refine ⟨(⟨(i 0).val / 5000, by show (i 0).val / 5000 < 10; omega⟩ : Fin cfg0.N), flush0_3 _, ?_⟩
  rw [mem_blk0]
  obtain ⟨e0, e1, e2, e3, e4, e5, e6, e7⟩ := idx_facts0 (⟨(i 0).val / 5000, by show (i 0).val / 5000 < 10; omega⟩ : Fin cfg0.N)
  intro a
  match a with
  | ⟨0, _⟩ =>
    show win0_3.index _ (0 : Fin 2) * 5000 ≤ (i 0).val ∧ (i 0).val < win0_3.index _ (0 : Fin 2) * 5000 + 5000
    rw [e6]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e7]; omega

/-- After its ten points the region's output array is the dense layer of the arrays it found. -/
theorem final0 (c : Dev nD) :
    (dat0 (F := Ideal) V c).arrAt 3 cfg0.N = Cert.Stages.lin (V c main_arg0) (V c main_arg9) (V c main_v22) :=
  (dat0 (F := Ideal) V c).arrAt_eq_of_cover 3 _ (fun t _ => flushed0_eq V c t) cover0

/-! ## The output layer: width 64 -/

/-- What the body computes from its three blocks, read at row r and column q: the row of the left block times the
    column of the weight matrix, plus the bias row's entry of that column. -/
theorem dense64_apply (x0 : Vec Ideal S5000x128 .f32) (x1 : Vec Ideal S128x64 .f32) (x2 : Vec Ideal S1x64 .f32)
    (r : Fin 5000) (q : Fin 64) :
    k7_pay1 (F := Ideal) x0 x1 x2 (ix2 r q) = (∑ k : Fin 128, x0 (ix2 r k) * x1 (ix2 k q)) + x2 (ix2 (0 : Fin 1) q) := by
  unfold k7_pay1
  rw [addf_apply]
  refine congrArg₂ (· + ·) ?_ ?_
  · refine (Cert.LibPlainMatmul.matmul_zero_plain _ _ _ r q).trans ?_
    rw [shapeCast_self]
    rfl
  · rw [shapeCast_self]
    exact broadcastTo_apply x2 _ (ix2 r q) (ix2 (0 : Fin 1) q) (fun a => match a with
      | ⟨0, _⟩ => by show 0 = if (1 : Nat) = 1 then 0 else r.val; rw [if_pos rfl]
      | ⟨1, _⟩ => by show q.val = if (64 : Nat) = 1 then 0 else q.val; rw [if_neg (by decide)])

/-- The index maps, decided over the ten points: the row blocks follow the point, the weight matrix and the bias row
    stay whole. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point t writes back is block t of the output layer of the arrays the region finds. -/
theorem flushed7_eq (c : Dev nD) (t : Fin cfg7.N) :
    (dat7 (F := Ideal) V c).flushed 3 t
      = ((cfg7.win 3).blk t).view.read (Elt Ideal) (Cert.Stages.lin64 (V c main_v60) (V c main_arg11) (V c main_v23)) := by
  show (cfg7.win 3).cut (grid7.coords t) ((dat7 V c).after 3 t) = _
  rw [after7_3]
  unfold out7_3
  rw [View.canon_unit_zero zero_offset_dense]
  simp only [View.ld_unit_zero (S := S5000x128) zero_offset_dense, View.ld_unit_zero (S := S128x64) zero_offset_dense, View.ld_unit_zero (S := S1x64) zero_offset_dense]
  obtain ⟨e0, e1, e2, e3, e4, e5, e6, e7⟩ := idx_facts7 t
  have ht : t.val < 10 := t.isLt
  refine funext fun (j : S5000x64.Idx) => ?_
  obtain ⟨r, q, rfl⟩ : ∃ (r : Fin 5000) (q : Fin 64), j = ix2 r q := ⟨j 0, j 1, eq_ix2 j⟩
  have hr : r.val < 5000 := r.isLt
  show k7_pay1 (F := Ideal) (iblk7 V c 0 t) (iblk7 V c 1 t) (iblk7 V c 2 t) (ix2 r q)
    = Cert.Stages.lin64 (V c main_v60) (V c main_arg11) (V c main_v23) (((cfg7.win 3).blk t).view.emb (ix2 r q))
  refine (dense64_apply _ _ _ r q).trans ?_
  have hout : ((cfg7.win 3).blk t).view.emb (ix2 r q) = ix2 (⟨5000 * t.val + r.val, by omega⟩ : Fin 50000) q := by
    funext a; apply Fin.ext
    match a with
    | ⟨0, _⟩ => show win7_3.index t (0 : Fin 2) * 5000 + 1 * r.val = 5000 * t.val + r.val; omega
    | ⟨1, _⟩ => show win7_3.index t (1 : Fin 2) * 64 + 1 * q.val = q.val; omega
  rw [hout, Cert.Stages.lin64_apply]
  refine congrArg₂ (· + ·) (Finset.sum_congr rfl fun k _ => congrArg₂ (· * ·) ?_ ?_) ?_
  · show V c main_v60 (((cfg7.win 0).blk t).view.emb (ix2 r k)) = _
    refine congrArg (V c main_v60) ?_
    funext a; apply Fin.ext
    match a with
    | ⟨0, _⟩ => show win7_0.index t (0 : Fin 2) * 5000 + 1 * r.val = 5000 * t.val + r.val; omega
    | ⟨1, _⟩ => show win7_0.index t (1 : Fin 2) * 128 + 1 * k.val = k.val; omega
  · show V c main_arg11 (((cfg7.win 1).blk t).view.emb (ix2 k q)) = _
    refine congrArg (V c main_arg11) ?_
    funext a; apply Fin.ext
    match a with
    | ⟨0, _⟩ => show win7_1.index t (0 : Fin 2) * 128 + 1 * k.val = k.val; omega
    | ⟨1, _⟩ => show win7_1.index t (1 : Fin 2) * 64 + 1 * q.val = q.val; omega
  · show V c main_v23 (((cfg7.win 2).blk t).view.emb (ix2 (0 : Fin 1) q)) = _
    refine congrArg (V c main_v23) ?_
    funext a; apply Fin.ext
    match a with
    | ⟨0, _⟩ => show win7_2.index t (0 : Fin 2) * 1 + 1 * 0 = 0; omega
    | ⟨1, _⟩ => show win7_2.index t (1 : Fin 2) * 64 + 1 * q.val = q.val; omega

/-- An index of the array is in point t's block iff each coordinate is in the block's range on its axis. -/
theorem mem_blk7 (t : Fin cfg7.N) (i : S50000x64.Idx) :
    i ∈ ((cfg7.win 3).blk t).view.set ↔ ∀ a : Fin 2, win7_3.index t a * S5000x64.size a ≤ (i a).val ∧ (i a).val < win7_3.index t a * S5000x64.size a + S5000x64.size a := by
  show i ∈ ((View.whole main_v61).slice (win7_3.rect t)).set ↔ _
  rw [View.set_slice_whole, Rect.mem_set_unit]
  exact Iff.rfl

/-- Every row lies in the block of the point its number divided by 5000 names, and every point writes its block back. -/
theorem cover7 (i : S50000x64.Idx) : ∃ t : Fin cfg7.N, (cfg7.win 3).flush t = true ∧ i ∈ ((cfg7.win 3).blk t).view.set := by
  have hi0 : (i 0).val < 50000 := (i 0).isLt
  have hi1 : (i 1).val < 64 := (i 1).isLt
  refine ⟨(⟨(i 0).val / 5000, by show (i 0).val / 5000 < 10; omega⟩ : Fin cfg7.N), flush7_3 _, ?_⟩
  rw [mem_blk7]
  obtain ⟨e0, e1, e2, e3, e4, e5, e6, e7⟩ := idx_facts7 (⟨(i 0).val / 5000, by show (i 0).val / 5000 < 10; omega⟩ : Fin cfg7.N)
  intro a
  match a with
  | ⟨0, _⟩ =>
    show win7_3.index _ (0 : Fin 2) * 5000 ≤ (i 0).val ∧ (i 0).val < win7_3.index _ (0 : Fin 2) * 5000 + 5000
    rw [e6]; show (i 0).val / 5000 * 5000 ≤ (i 0).val ∧ (i 0).val < (i 0).val / 5000 * 5000 + 5000; omega
  | ⟨1, _⟩ =>
    show win7_3.index _ (1 : Fin 2) * 64 ≤ (i 1).val ∧ (i 1).val < win7_3.index _ (1 : Fin 2) * 64 + 64
    rw [e7]; omega

/-- After its ten points the region's output array is the output layer of the arrays it found. -/
theorem final7 (c : Dev nD) :
    (dat7 (F := Ideal) V c).arrAt 3 cfg7.N = Cert.Stages.lin64 (V c main_v60) (V c main_arg11) (V c main_v23) :=
  (dat7 (F := Ideal) V c).arrAt_eq_of_cover 3 _ (fun t _ => flushed7_eq V c t) cover7

end Cert.KernelIdeal.RegionValue

end
-- ==== Proof.RegionMessage.lean ====
/-
  The message layer of a graph convolution, region by region.

  Each of the three message regions walks the 50000 rows of its input in ten blocks of 5000 rows. On one block the
  body scales every row of the block by that row's entry of a one-column array, and multiplies the scaled block by
  a 128 × 128 matrix into a zero accumulator. Read at (r, q) the block result is therefore
  the sum over k of (x r k · d r 0) · W k q, and block t of the output holds rows 5000·t … 5000·t + 4999 of the whole-array
  message layer `preAgg`. The ten blocks tile the output array, so the array ends holding `preAgg` of the region's
  three input arrays.
-/
import proofs.«154122_j45311904973171_1_alg».proof.Proof.Gen.KernelIdeal.Frame
import proofs.«154122_j45311904973171_1_alg».proof.Proof.Gen.ReferenceIdeal
import proofs.«154122_j45311904973171_1_alg».proof.Proof.Stages
import proofs.«154122_j45311904973171_1_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable (V : (c : Dev nD) → (b : Ref sig .tc) → Buf (Elt Ideal) ((c : Thread nD τ).loc b))

/-- The zero offsets of a whole-buffer access, however they are spelt. -/
theorem hz : (![0, 0] : Fin 2 → Nat) = fun _ => 0 := funext fun a => by fin_cases a <;> rfl

/-! ## Region 1 -/

/-- The block result read at (r, q): the row r of the block scaled by its entry of the column, times column q of the matrix. -/
theorem message_block1 (x0 : Vec Ideal S5000x128 .f32) (x1 : Vec Ideal S5000x1 .f32) (x2 : Vec Ideal S128x128 .f32) (r : Fin 5000) (q : Fin 128) :
    k1_pay1 (F := Ideal) x0 x1 x2 (ix2 r q) = ∑ k : Fin 128, (x0 (ix2 r k) * x1 (ix2 r (0 : Fin 1))) * x2 (ix2 k q) := by
  unfold k1_pay1
  refine (Cert.LibPlainMatmul.matmul_zero_plain _ _ _ r q).trans ?_
  refine Finset.sum_congr rfl fun k _ => ?_
  show x0 (ix2 r k) * broadcastTo S5000x128 (shapeCast S5000x1 x1 shapeCasts_S5000x1_S5000x1) broadcasts_S5000x1_S5000x128 (ix2 r k) * x2 (ix2 k q) = _
  rw [shapeCast_self, broadcastTo_apply x1 broadcasts_S5000x1_S5000x128 (ix2 r k) (ix2 r (0 : Fin 1)) (fun a => match a with
    | ⟨0, _⟩ => by show r.val = if (5000 : Nat) = 1 then 0 else r.val; rw [if_neg (by decide)]
    | ⟨1, _⟩ => by show 0 = if (1 : Nat) = 1 then 0 else k.val; rw [if_pos rfl])]

/-- The index maps over the grid: the row-blocked windows sit at block (t, 0), the matrix at block (0, 0). -/
theorem block_index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the message layer of the region's input arrays. -/
theorem flushed1_eq (c : Dev nD) (t : Fin cfg1.N) :
    (dat1 (F := Ideal) V c).flushed 3 t = ((cfg1.win 3).blk t).view.read (Elt Ideal) (Cert.Stages.preAgg (V c main_arg0) (V c main_v17) (V c main_arg3)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S128x128) hz]
  obtain ⟨e00, e01, e10, e11, e20, e21, e30, e31⟩ := block_index1 t
  have ht : t.val < 10 := lt_of_lt_of_eq t.isLt N_1
  refine funext fun (j : S5000x128.Idx) => ?_
  obtain ⟨r, q, rfl⟩ : ∃ (r : Fin 5000) (q : Fin 128), j = ix2 r q := ⟨j 0, j 1, eq_ix2 j⟩
  have hr : r.val < 5000 := r.isLt
  have hq : q.val < 128 := q.isLt
  have hrow : 5000 * t.val + r.val < 50000 := by omega
  show k1_pay1 (F := Ideal) (iblk1 V c 0 t) (iblk1 V c 1 t) (iblk1 V c 2 t) (ix2 r q)
    = Cert.Stages.preAgg (V c main_arg0) (V c main_v17) (V c main_arg3) (((cfg1.win 3).blk t).view.emb (ix2 r q))
  refine (message_block1 _ _ _ r q).trans ?_
  have hout : ((cfg1.win 3).blk t).view.emb (ix2 r q) = ix2 (⟨5000 * t.val + r.val, hrow⟩ : Fin 50000) q := by
    funext a; apply Fin.ext
    match a with
    | ⟨0, _⟩ => show win1_3.index t (0 : Fin 2) * 5000 + 1 * r.val = 5000 * t.val + r.val; omega
    | ⟨1, _⟩ => show win1_3.index t (1 : Fin 2) * 128 + 1 * q.val = q.val; omega
  rw [hout, Cert.Stages.preAgg_apply]
  refine Finset.sum_congr rfl fun k _ => ?_
  have hk : k.val < 128 := k.isLt
  have h0 : ((cfg1.win 0).blk t).view.emb (ix2 r k) = ix2 (⟨5000 * t.val + r.val, hrow⟩ : Fin 50000) k := by
    funext a; apply Fin.ext
    match a with
    | ⟨0, _⟩ => show win1_0.index t (0 : Fin 2) * 5000 + 1 * r.val = 5000 * t.val + r.val; omega
    | ⟨1, _⟩ => show win1_0.index t (1 : Fin 2) * 128 + 1 * k.val = k.val; omega
  have h1 : ((cfg1.win 1).blk t).view.emb (ix2 r (0 : Fin 1)) = ix2 (⟨5000 * t.val + r.val, hrow⟩ : Fin 50000) (0 : Fin 1) := by
    funext a; apply Fin.ext
    match a with
    | ⟨0, _⟩ => show win1_1.index t (0 : Fin 2) * 5000 + 1 * r.val = 5000 * t.val + r.val; omega
    | ⟨1, _⟩ => show win1_1.index t (1 : Fin 2) * 1 + 1 * 0 = 0; omega
  have h2 : ((cfg1.win 2).blk t).view.emb (ix2 k q) = ix2 k q := by
    funext a; apply Fin.ext
    match a with
    | ⟨0, _⟩ => show win1_2.index t (0 : Fin 2) * 128 + 1 * k.val = k.val; omega
    | ⟨1, _⟩ => show win1_2.index t (1 : Fin 2) * 128 + 1 * q.val = q.val; omega
  exact congrArg₂ (· * ·) (congrArg₂ (· * ·) (congrArg (V c main_arg0) h0) (congrArg (V c main_v17) h1)) (congrArg (V c main_arg3) h2)

/-- An index of the output array is in point t's block iff each coordinate is in the block's range on its axis. -/
theorem mem_block1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v25).slice (win1_3.rect t)).set ↔ _
  rw [View.set_slice_whole, Rect.mem_set_unit]
  exact Iff.rfl

/-- The ten blocks tile the output array, so it ends holding the message layer of the region's input arrays. -/
theorem final1 (c : Dev nD) :
    (dat1 (F := Ideal) V c).arrAt 3 cfg1.N = Cert.Stages.preAgg (V c main_arg0) (V c main_v17) (V c main_arg3) :=
  (dat1 (F := Ideal) V c).arrAt_eq_of_cover 3 (Cert.Stages.preAgg (V c main_arg0) (V c main_v17) (V c main_arg3)) (fun t _ => flushed1_eq V c t) fun i => by
    have hi0 : (i 0).val < 50000 := (i 0).isLt
    have hi1 : (i 1).val < 128 := (i 1).isLt
    have hN : cfg1.N = 10 := N_1
    let t : Fin cfg1.N := ⟨(i 0).val / 5000, by rw [hN]; omega⟩
    obtain ⟨e00, e01, e10, e11, e20, e21, e30, e31⟩ := block_index1 t
    have htv : t.val = (i 0).val / 5000 := rfl
    refine ⟨t, flush1_3 t, (mem_block1 t i).mpr fun a => ?_⟩
    match a with
    | ⟨0, _⟩ => show win1_3.index t (0 : Fin 2) * 5000 ≤ (i 0).val ∧ (i 0).val < win1_3.index t (0 : Fin 2) * 5000 + 5000; omega
    | ⟨1, _⟩ => show win1_3.index t (1 : Fin 2) * 128 ≤ (i 1).val ∧ (i 1).val < win1_3.index t (1 : Fin 2) * 128 + 128; omega

/-! ## Region 3 -/

/-- The block result read at (r, q): the row r of the block scaled by its entry of the column, times column q of the matrix. -/
theorem message_block3 (x0 : Vec Ideal S5000x128 .f32) (x1 : Vec Ideal S5000x1 .f32) (x2 : Vec Ideal S128x128 .f32) (r : Fin 5000) (q : Fin 128) :
    k3_pay1 (F := Ideal) x0 x1 x2 (ix2 r q) = ∑ k : Fin 128, (x0 (ix2 r k) * x1 (ix2 r (0 : Fin 1))) * x2 (ix2 k q) := by
  unfold k3_pay1
  refine (Cert.LibPlainMatmul.matmul_zero_plain _ _ _ r q).trans ?_
  refine Finset.sum_congr rfl fun k _ => ?_
  show shapeCast S5000x128 x0 shapeCasts_S5000x128_S5000x128 (ix2 r k) * broadcastTo S5000x128 (shapeCast S5000x1 x1 shapeCasts_S5000x1_S5000x1) broadcasts_S5000x1_S5000x128 (ix2 r k) * x2 (ix2 k q) = _
  rw [shapeCast_self, shapeCast_self, broadcastTo_apply x1 broadcasts_S5000x1_S5000x128 (ix2 r k) (ix2 r (0 : Fin 1)) (fun a => match a with
    | ⟨0, _⟩ => by show r.val = if (5000 : Nat) = 1 then 0 else r.val; rw [if_neg (by decide)]
    | ⟨1, _⟩ => by show 0 = if (1 : Nat) = 1 then 0 else k.val; rw [if_pos rfl])]

/-- The index maps over the grid: the row-blocked windows sit at block (t, 0), the matrix at block (0, 0). -/
theorem block_index3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the message layer of the region's input arrays. -/
theorem flushed3_eq (c : Dev nD) (t : Fin cfg3.N) :
    (dat3 (F := Ideal) V c).flushed 3 t = ((cfg3.win 3).blk t).view.read (Elt Ideal) (Cert.Stages.preAgg (V c main_v36) (V c main_v17) (V c main_arg5)) := by
  show (cfg3.win 3).cut (grid3.coords t) ((dat3 V c).after 3 t) = _
  rw [after3_3]
  unfold out3_3
  rw [View.canon_unit_zero hz]
  simp only [View.ld_unit_zero (S := S5000x128) hz, View.ld_unit_zero (S := S5000x1) hz, View.ld_unit_zero (S := S128x128) hz]
  obtain ⟨e00, e01, e10, e11, e20, e21, e30, e31⟩ := block_index3 t
  have ht : t.val < 10 := lt_of_lt_of_eq t.isLt N_3
  refine funext fun (j : S5000x128.Idx) => ?_
  obtain ⟨r, q, rfl⟩ : ∃ (r : Fin 5000) (q : Fin 128), j = ix2 r q := ⟨j 0, j 1, eq_ix2 j⟩
  have hr : r.val < 5000 := r.isLt
  have hq : q.val < 128 := q.isLt
  have hrow : 5000 * t.val + r.val < 50000 := by omega
  show k3_pay1 (F := Ideal) (iblk3 V c 0 t) (iblk3 V c 1 t) (iblk3 V c 2 t) (ix2 r q)
    = Cert.Stages.preAgg (V c main_v36) (V c main_v17) (V c main_arg5) (((cfg3.win 3).blk t).view.emb (ix2 r q))
  refine (message_block3 _ _ _ r q).trans ?_
  have hout : ((cfg3.win 3).blk t).view.emb (ix2 r q) = ix2 (⟨5000 * t.val + r.val, hrow⟩ : Fin 50000) q := by
    funext a; apply Fin.ext
    match a with
    | ⟨0, _⟩ => show win3_3.index t (0 : Fin 2) * 5000 + 1 * r.val = 5000 * t.val + r.val; omega
    | ⟨1, _⟩ => show win3_3.index t (1 : Fin 2) * 128 + 1 * q.val = q.val; omega
  rw [hout, Cert.Stages.preAgg_apply]
  refine Finset.sum_congr rfl fun k _ => ?_
  have hk : k.val < 128 := k.isLt
  have h0 : ((cfg3.win 0).blk t).view.emb (ix2 r k) = ix2 (⟨5000 * t.val + r.val, hrow⟩ : Fin 50000) k := by
    funext a; apply Fin.ext
    match a with
    | ⟨0, _⟩ => show win3_0.index t (0 : Fin 2) * 5000 + 1 * r.val = 5000 * t.val + r.val; omega
    | ⟨1, _⟩ => show win3_0.index t (1 : Fin 2) * 128 + 1 * k.val = k.val; omega
  have h1 : ((cfg3.win 1).blk t).view.emb (ix2 r (0 : Fin 1)) = ix2 (⟨5000 * t.val + r.val, hrow⟩ : Fin 50000) (0 : Fin 1) := by
    funext a; apply Fin.ext
    match a with
    | ⟨0, _⟩ => show win3_1.index t (0 : Fin 2) * 5000 + 1 * r.val = 5000 * t.val + r.val; omega
    | ⟨1, _⟩ => show win3_1.index t (1 : Fin 2) * 1 + 1 * 0 = 0; omega
  have h2 : ((cfg3.win 2).blk t).view.emb (ix2 k q) = ix2 k q := by
    funext a; apply Fin.ext
    match a with
    | ⟨0, _⟩ => show win3_2.index t (0 : Fin 2) * 128 + 1 * k.val = k.val; omega
    | ⟨1, _⟩ => show win3_2.index t (1 : Fin 2) * 128 + 1 * q.val = q.val; omega
  exact congrArg₂ (· * ·) (congrArg₂ (· * ·) (congrArg (V c main_v36) h0) (congrArg (V c main_v17) h1)) (congrArg (V c main_arg5) h2)

/-- An index of the output array is in point t's block iff each coordinate is in the block's range on its axis. -/
theorem mem_block3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v37).slice (win3_3.rect t)).set ↔ _
  rw [View.set_slice_whole, Rect.mem_set_unit]
  exact Iff.rfl

/-- The ten blocks tile the output array, so it ends holding the message layer of the region's input arrays. -/
theorem final3 (c : Dev nD) :
    (dat3 (F := Ideal) V c).arrAt 3 cfg3.N = Cert.Stages.preAgg (V c main_v36) (V c main_v17) (V c main_arg5) :=
  (dat3 (F := Ideal) V c).arrAt_eq_of_cover 3 (Cert.Stages.preAgg (V c main_v36) (V c main_v17) (V c main_arg5)) (fun t _ => flushed3_eq V c t) fun i => by
    have hi0 : (i 0).val < 50000 := (i 0).isLt
    have hi1 : (i 1).val < 128 := (i 1).isLt
    have hN : cfg3.N = 10 := N_3
    let t : Fin cfg3.N := ⟨(i 0).val / 5000, by rw [hN]; omega⟩
    obtain ⟨e00, e01, e10, e11, e20, e21, e30, e31⟩ := block_index3 t
    have htv : t.val = (i 0).val / 5000 := rfl
    refine ⟨t, flush3_3 t, (mem_block3 t i).mpr fun a => ?_⟩
    match a with
    | ⟨0, _⟩ => show win3_3.index t (0 : Fin 2) * 5000 ≤ (i 0).val ∧ (i 0).val < win3_3.index t (0 : Fin 2) * 5000 + 5000; omega
    | ⟨1, _⟩ => show win3_3.index t (1 : Fin 2) * 128 ≤ (i 1).val ∧ (i 1).val < win3_3.index t (1 : Fin 2) * 128 + 128; omega

/-! ## Region 5 -/

/-- The block result read at (r, q): the row r of the block scaled by its entry of the column, times column q of the matrix. -/
theorem message_block5 (x0 : Vec Ideal S5000x128 .f32) (x1 : Vec Ideal S5000x1 .f32) (x2 : Vec Ideal S128x128 .f32) (r : Fin 5000) (q : Fin 128) :
    k5_pay1 (F := Ideal) x0 x1 x2 (ix2 r q) = ∑ k : Fin 128, (x0 (ix2 r k) * x1 (ix2 r (0 : Fin 1))) * x2 (ix2 k q) := by
  unfold k5_pay1
  refine (Cert.LibPlainMatmul.matmul_zero_plain _ _ _ r q).trans ?_
  refine Finset.sum_congr rfl fun k _ => ?_
  show shapeCast S5000x128 x0 shapeCasts_S5000x128_S5000x128 (ix2 r k) * broadcastTo S5000x128 (shapeCast S5000x1 x1 shapeCasts_S5000x1_S5000x1) broadcasts_S5000x1_S5000x128 (ix2 r k) * x2 (ix2 k q) = _
  rw [shapeCast_self, shapeCast_self, broadcastTo_apply x1 broadcasts_S5000x1_S5000x128 (ix2 r k) (ix2 r (0 : Fin 1)) (fun a => match a with
    | ⟨0, _⟩ => by show r.val = if (5000 : Nat) = 1 then 0 else r.val; rw [if_neg (by decide)]
    | ⟨1, _⟩ => by show 0 = if (1 : Nat) = 1 then 0 else k.val; rw [if_pos rfl])]

/-- The index maps over the grid: the row-blocked windows sit at block (t, 0), the matrix at block (0, 0). -/
theorem block_index5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point t writes back is block t of the message layer of the region's input arrays. -/
theorem flushed5_eq (c : Dev nD) (t : Fin cfg5.N) :
    (dat5 (F := Ideal) V c).flushed 3 t = ((cfg5.win 3).blk t).view.read (Elt Ideal) (Cert.Stages.preAgg (V c main_v48) (V c main_v17) (V c main_arg7)) := by
  show (cfg5.win 3).cut (grid5.coords t) ((dat5 V c).after 3 t) = _
  rw [after5_3]
  unfold out5_3
  rw [View.canon_unit_zero hz]
  simp only [View.ld_unit_zero (S := S5000x128) hz, View.ld_unit_zero (S := S5000x1) hz, View.ld_unit_zero (S := S128x128) hz]
  obtain ⟨e00, e01, e10, e11, e20, e21, e30, e31⟩ := block_index5 t
  have ht : t.val < 10 := lt_of_lt_of_eq t.isLt N_5
  refine funext fun (j : S5000x128.Idx) => ?_
  obtain ⟨r, q, rfl⟩ : ∃ (r : Fin 5000) (q : Fin 128), j = ix2 r q := ⟨j 0, j 1, eq_ix2 j⟩
  have hr : r.val < 5000 := r.isLt
  have hq : q.val < 128 := q.isLt
  have hrow : 5000 * t.val + r.val < 50000 := by omega
  show k5_pay1 (F := Ideal) (iblk5 V c 0 t) (iblk5 V c 1 t) (iblk5 V c 2 t) (ix2 r q)
    = Cert.Stages.preAgg (V c main_v48) (V c main_v17) (V c main_arg7) (((cfg5.win 3).blk t).view.emb (ix2 r q))
  refine (message_block5 _ _ _ r q).trans ?_
  have hout : ((cfg5.win 3).blk t).view.emb (ix2 r q) = ix2 (⟨5000 * t.val + r.val, hrow⟩ : Fin 50000) q := by
    funext a; apply Fin.ext
    match a with
    | ⟨0, _⟩ => show win5_3.index t (0 : Fin 2) * 5000 + 1 * r.val = 5000 * t.val + r.val; omega
    | ⟨1, _⟩ => show win5_3.index t (1 : Fin 2) * 128 + 1 * q.val = q.val; omega
  rw [hout, Cert.Stages.preAgg_apply]
  refine Finset.sum_congr rfl fun k _ => ?_
  have hk : k.val < 128 := k.isLt
  have h0 : ((cfg5.win 0).blk t).view.emb (ix2 r k) = ix2 (⟨5000 * t.val + r.val, hrow⟩ : Fin 50000) k := by
    funext a; apply Fin.ext
    match a with
    | ⟨0, _⟩ => show win5_0.index t (0 : Fin 2) * 5000 + 1 * r.val = 5000 * t.val + r.val; omega
    | ⟨1, _⟩ => show win5_0.index t (1 : Fin 2) * 128 + 1 * k.val = k.val; omega
  have h1 : ((cfg5.win 1).blk t).view.emb (ix2 r (0 : Fin 1)) = ix2 (⟨5000 * t.val + r.val, hrow⟩ : Fin 50000) (0 : Fin 1) := by
    funext a; apply Fin.ext
    match a with
    | ⟨0, _⟩ => show win5_1.index t (0 : Fin 2) * 5000 + 1 * r.val = 5000 * t.val + r.val; omega
    | ⟨1, _⟩ => show win5_1.index t (1 : Fin 2) * 1 + 1 * 0 = 0; omega
  have h2 : ((cfg5.win 2).blk t).view.emb (ix2 k q) = ix2 k q := by
    funext a; apply Fin.ext
    match a with
    | ⟨0, _⟩ => show win5_2.index t (0 : Fin 2) * 128 + 1 * k.val = k.val; omega
    | ⟨1, _⟩ => show win5_2.index t (1 : Fin 2) * 128 + 1 * q.val = q.val; omega
  exact congrArg₂ (· * ·) (congrArg₂ (· * ·) (congrArg (V c main_v48) h0) (congrArg (V c main_v17) h1)) (congrArg (V c main_arg7) h2)

/-- An index of the output array is in point t's block iff each coordinate is in the block's range on its axis. -/
theorem mem_block5 (t : Fin cfg5.N) (i : S50000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v49).slice (win5_3.rect t)).set ↔ _
  rw [View.set_slice_whole, Rect.mem_set_unit]
  exact Iff.rfl

/-- The ten blocks tile the output array, so it ends holding the message layer of the region's input arrays. -/
theorem final5 (c : Dev nD) :
    (dat5 (F := Ideal) V c).arrAt 3 cfg5.N = Cert.Stages.preAgg (V c main_v48) (V c main_v17) (V c main_arg7) :=
  (dat5 (F := Ideal) V c).arrAt_eq_of_cover 3 (Cert.Stages.preAgg (V c main_v48) (V c main_v17) (V c main_arg7)) (fun t _ => flushed5_eq V c t) fun i => by
    have hi0 : (i 0).val < 50000 := (i 0).isLt
    have hi1 : (i 1).val < 128 := (i 1).isLt
    have hN : cfg5.N = 10 := N_5
    let t : Fin cfg5.N := ⟨(i 0).val / 5000, by rw [hN]; omega⟩
    obtain ⟨e00, e01, e10, e11, e20, e21, e30, e31⟩ := block_index5 t
    have htv : t.val = (i 0).val / 5000 := rfl
    refine ⟨t, flush5_3 t, (mem_block5 t i).mpr fun a => ?_⟩
    match a with
    | ⟨0, _⟩ => show win5_3.index t (0 : Fin 2) * 5000 ≤ (i 0).val ∧ (i 0).val < win5_3.index t (0 : Fin 2) * 5000 + 5000; omega
    | ⟨1, _⟩ => show win5_3.index t (1 : Fin 2) * 128 ≤ (i 1).val ∧ (i 1).val < win5_3.index t (1 : Fin 2) * 128 + 128; omega

end Cert.KernelIdeal.RegionValue

end
-- ==== Proof.RegionUpdate.lean ====
/-
  The update layers of the graph convolution, region by region: what each region's output array holds once all ten
  grid points have written their blocks back.

  A region walks a grid of 10 points; point t owns rows 5000·t … 5000·t + 4999 of a 50000-row array. Its body reads the
  block of the neighbourhood sums A, the block of the scaling column d and the whole bias row b (the last region also
  the block of a residual array R) and stores, entry by entry, max (A · d + b, 0) (respectively max (A · d + b + R, 0)).
  Read at local row r and column q of point t's block, every input is the whole array read at row 5000·t + r, so each
  block written back is the block of one whole-array function of the region's inputs; the ten blocks tile the array,
  so the array ends holding that function everywhere.
-/
import proofs.«154122_j45311904973171_1_alg».proof.Proof.Gen.KernelIdeal.Frame
import proofs.«154122_j45311904973171_1_alg».proof.Proof.Stages
import proofs.«154122_j45311904973171_1_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! ## Reading the body's broadcasts -/

theorem hz_update : (![0, 0] : Fin 2 → Nat) = fun _ => 0 := funext fun a => by fin_cases a <;> rfl

/-- A column block spread over 128 columns reads, at (r, q), its entry of row r. -/
theorem colTo_apply_update (d : Vec Ideal S5000x1 .f32) (r : Fin 5000) (q : Fin 128) :
    broadcastTo S5000x128 d broadcasts_S5000x1_S5000x128 (ix2 r q) = d (ix2 r (0 : Fin 1)) :=
  broadcastTo_apply d broadcasts_S5000x1_S5000x128 (ix2 r q) (ix2 r (0 : Fin 1)) (fun a => match a with
    | ⟨0, _⟩ => by show r.val = if (5000 : Nat) = 1 then 0 else r.val; rw [if_neg (by decide)]
    | ⟨1, _⟩ => by show 0 = if (1 : Nat) = 1 then 0 else q.val; rw [if_pos rfl])

/-- The bias row spread over 5000 rows reads, at (r, q), its entry of column q. -/
theorem rowTo_apply_update (b : Vec Ideal S1x128 .f32) (r : Fin 5000) (q : Fin 128) :
    broadcastTo S5000x128 b broadcasts_S1x128_S5000x128 (ix2 r q) = b (ix2 (0 : Fin 1) q) :=
  broadcastTo_apply b broadcasts_S1x128_S5000x128 (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])

/-! ## Region 2: the first update layer -/

/-- The body's stored value at local row r, column q. -/
theorem pay2_apply (x0 : Vec Ideal S5000x128 .f32) (x1 : Vec Ideal S5000x1 .f32) (x2 : Vec Ideal S1x128 .f32) (r : Fin 5000) (q : Fin 128) :
    k2_pay1 (F := Ideal) x0 x1 x2 (ix2 r q)
      = max (x0 (ix2 r q) * x1 (ix2 r (0 : Fin 1)) + x2 (ix2 (0 : Fin 1) q)) (Ideal.ofBits .f32 0x00000000#32) := by
  unfold k2_pay1
  rw [maximumf_apply, addf_apply, mulf_apply, shapeCast_self, shapeCast_self, shapeCast_self, colTo_apply_update, rowTo_apply_update]
  rfl

/-- The block index maps, decided over the grid: the row-blocked windows sit at block (t, 0), the bias row at (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- What point t writes back is block t of the update layer of the region's input arrays. -/
theorem flushed2_eq (c : Dev nD) (t : Fin cfg2.N) :
    (dat2 (F := Ideal) V c).flushed 3 t = ((cfg2.win 3).blk t).view.read (Elt Ideal) (Cert.Stages.postAgg (V c main_v35) (V c main_v18) (V c main_v19)) := by
  show (cfg2.win 3).cut (grid2.coords t) ((dat2 V c).after 3 t) = _
  rw [after2_3]
  unfold out2_3
  rw [View.canon_unit_zero hz_update]
  simp only [View.ld_unit_zero (S := S5000x128) hz_update, View.ld_unit_zero (S := S5000x1) hz_update, View.ld_unit_zero (S := S1x128) hz_update]
  obtain ⟨e0r, e0c, e1r, e1c, e2r, e2c, e3r, e3c⟩ := idx_facts2 t
  have ht : t.val < 10 := lt_of_lt_of_eq t.isLt N_2
  funext j
  obtain ⟨r, q, rfl⟩ : ∃ (r : Fin 5000) (q : Fin 128), j = ix2 r q := ⟨j 0, j 1, eq_ix2 j⟩
  show k2_pay1 (F := Ideal) (iblk2 V c 0 t) (iblk2 V c 1 t) (iblk2 V c 2 t) (ix2 r q)
    = Cert.Stages.postAgg (V c main_v35) (V c main_v18) (V c main_v19) (((cfg2.win 3).blk t).view.emb (ix2 r q))
  refine (pay2_apply _ _ _ r q).trans ?_
  have hr : r.val < 5000 := r.isLt
  -- local (r, q) of block t is row 5000·t + r, column q of the array
  have hemb : ((cfg2.win 3).blk t).view.emb (ix2 r q) = ix2 (⟨5000 * t.val + r.val, by omega⟩ : Fin 50000) q := by
    funext a; apply Fin.ext
    match a with
    | ⟨0, _⟩ => show win2_3.index t (0 : Fin 2) * 5000 + 1 * r.val = 5000 * t.val + r.val; omega
    | ⟨1, _⟩ => show win2_3.index t (1 : Fin 2) * 128 + 1 * q.val = q.val; omega
  rw [hemb, Cert.Stages.postAgg_apply]
  have h0 : iblk2 V c 0 t (ix2 r q) = V c main_v35 (ix2 (⟨5000 * t.val + r.val, by omega⟩ : Fin 50000) q) := by
    show V c main_v35 (((cfg2.win 0).blk t).view.emb (ix2 r q)) = _
    refine congrArg (V c main_v35) ?_
    funext a; apply Fin.ext
    match a with
    | ⟨0, _⟩ => show win2_0.index t (0 : Fin 2) * 5000 + 1 * r.val = 5000 * t.val + r.val; omega
    | ⟨1, _⟩ => show win2_0.index t (1 : Fin 2) * 128 + 1 * q.val = q.val; omega
  have h1 : iblk2 V c 1 t (ix2 r (0 : Fin 1)) = V c main_v18 (ix2 (⟨5000 * t.val + r.val, by omega⟩ : Fin 50000) (0 : Fin 1)) := by
    show V c main_v18 (((cfg2.win 1).blk t).view.emb (ix2 r (0 : Fin 1))) = _
    refine congrArg (V c main_v18) ?_
    funext a; apply Fin.ext
    match a with
    | ⟨0, _⟩ => show win2_1.index t (0 : Fin 2) * 5000 + 1 * r.val = 5000 * t.val + r.val; omega
    | ⟨1, _⟩ => show win2_1.index t (1 : Fin 2) * 1 + 1 * 0 = 0; omega
  have h2 : iblk2 V c 2 t (ix2 (0 : Fin 1) q) = V c main_v19 (ix2 (0 : Fin 1) q) := by
    show V c main_v19 (((cfg2.win 2).blk t).view.emb (ix2 (0 : Fin 1) q)) = _
    refine congrArg (V c main_v19) ?_
    funext a; apply Fin.ext
    match a with
    | ⟨0, _⟩ => show win2_2.index t (0 : Fin 2) * 1 + 1 * 0 = 0; omega
    | ⟨1, _⟩ => show win2_2.index t (1 : Fin 2) * 128 + 1 * q.val = q.val; omega
  rw [h0, h1, h2]

/-- An index of the array is in point t's block iff each coordinate is in the block's range on its axis. -/
theorem mem_blk2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v36).slice (win2_3.rect t)).set ↔ _
  rw [View.set_slice_whole, Rect.mem_set_unit]
  exact Iff.rfl

/-- Every row of the array lies in the block of the point its row number divided by 5000 names, and every point writes back. -/
theorem cover2 (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  let t : Fin cfg2.N := ⟨(i 0).val / 5000, lt_of_lt_of_eq (by omega) N_2.symm⟩
  have htv : t.val = (i 0).val / 5000 := rfl
  obtain ⟨e0r, e0c, e1r, e1c, e2r, e2c, e3r, e3c⟩ := idx_facts2 t
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The region's output array after all ten points: the update layer of its input arrays. -/
theorem final2 (c : Dev nD) :
    (dat2 (F := Ideal) V c).arrAt 3 cfg2.N = Cert.Stages.postAgg (V c main_v35) (V c main_v18) (V c main_v19) :=
  (dat2 (F := Ideal) V c).arrAt_eq_of_cover 3 _ (fun t _ => flushed2_eq V c t) cover2

end

/-! ## Region 4: the second update layer, the same body on the second round's arrays -/

/-- The body's stored value at local row r, column q. -/
theorem pay4_apply (x0 : Vec Ideal S5000x128 .f32) (x1 : Vec Ideal S5000x1 .f32) (x2 : Vec Ideal S1x128 .f32) (r : Fin 5000) (q : Fin 128) :
    k4_pay1 (F := Ideal) x0 x1 x2 (ix2 r q)
      = max (x0 (ix2 r q) * x1 (ix2 r (0 : Fin 1)) + x2 (ix2 (0 : Fin 1) q)) (Ideal.ofBits .f32 0x00000000#32) := by
  unfold k4_pay1
  rw [maximumf_apply, addf_apply, mulf_apply, shapeCast_self, shapeCast_self, shapeCast_self, colTo_apply_update, rowTo_apply_update]
  rfl

/-- The block index maps, decided over the grid: the row-blocked windows sit at block (t, 0), the bias row at (0, 0). -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

section
variable (V : (c : Dev nD) → (b : Ref sig .tc) → Buf (Elt Ideal) ((c : Thread nD τ).loc b))

/-- What point t writes back is block t of the update layer of the region's input arrays. -/
theorem flushed4_eq (c : Dev nD) (t : Fin cfg4.N) :
    (dat4 (F := Ideal) V c).flushed 3 t = ((cfg4.win 3).blk t).view.read (Elt Ideal) (Cert.Stages.postAgg (V c main_v47) (V c main_v18) (V c main_v20)) := by
  show (cfg4.win 3).cut (grid4.coords t) ((dat4 V c).after 3 t) = _
  rw [after4_3]
  unfold out4_3
  rw [View.canon_unit_zero hz_update]
  simp only [View.ld_unit_zero (S := S5000x128) hz_update, View.ld_unit_zero (S := S5000x1) hz_update, View.ld_unit_zero (S := S1x128) hz_update]
  obtain ⟨e0r, e0c, e1r, e1c, e2r, e2c, e3r, e3c⟩ := idx_facts4 t
  have ht : t.val < 10 := lt_of_lt_of_eq t.isLt N_4
  funext j
  obtain ⟨r, q, rfl⟩ : ∃ (r : Fin 5000) (q : Fin 128), j = ix2 r q := ⟨j 0, j 1, eq_ix2 j⟩
  show k4_pay1 (F := Ideal) (iblk4 V c 0 t) (iblk4 V c 1 t) (iblk4 V c 2 t) (ix2 r q)
    = Cert.Stages.postAgg (V c main_v47) (V c main_v18) (V c main_v20) (((cfg4.win 3).blk t).view.emb (ix2 r q))
  refine (pay4_apply _ _ _ r q).trans ?_
  have hr : r.val < 5000 := r.isLt
  -- local (r, q) of block t is row 5000·t + r, column q of the array
  have hemb : ((cfg4.win 3).blk t).view.emb (ix2 r q) = ix2 (⟨5000 * t.val + r.val, by omega⟩ : Fin 50000) q := by
    funext a; apply Fin.ext
    match a with
    | ⟨0, _⟩ => show win4_3.index t (0 : Fin 2) * 5000 + 1 * r.val = 5000 * t.val + r.val; omega
    | ⟨1, _⟩ => show win4_3.index t (1 : Fin 2) * 128 + 1 * q.val = q.val; omega
  rw [hemb, Cert.Stages.postAgg_apply]
  have h0 : iblk4 V c 0 t (ix2 r q) = V c main_v47 (ix2 (⟨5000 * t.val + r.val, by omega⟩ : Fin 50000) q) := by
    show V c main_v47 (((cfg4.win 0).blk t).view.emb (ix2 r q)) = _
    refine congrArg (V c main_v47) ?_
    funext a; apply Fin.ext
    match a with
    | ⟨0, _⟩ => show win4_0.index t (0 : Fin 2) * 5000 + 1 * r.val = 5000 * t.val + r.val; omega
    | ⟨1, _⟩ => show win4_0.index t (1 : Fin 2) * 128 + 1 * q.val = q.val; omega
  have h1 : iblk4 V c 1 t (ix2 r (0 : Fin 1)) = V c main_v18 (ix2 (⟨5000 * t.val + r.val, by omega⟩ : Fin 50000) (0 : Fin 1)) := by
    show V c main_v18 (((cfg4.win 1).blk t).view.emb (ix2 r (0 : Fin 1))) = _
    refine congrArg (V c main_v18) ?_
    funext a; apply Fin.ext
    match a with
    | ⟨0, _⟩ => show win4_1.index t (0 : Fin 2) * 5000 + 1 * r.val = 5000 * t.val + r.val; omega
    | ⟨1, _⟩ => show win4_1.index t (1 : Fin 2) * 1 + 1 * 0 = 0; omega
  have h2 : iblk4 V c 2 t (ix2 (0 : Fin 1) q) = V c main_v20 (ix2 (0 : Fin 1) q) := by
    show V c main_v20 (((cfg4.win 2).blk t).view.emb (ix2 (0 : Fin 1) q)) = _
    refine congrArg (V c main_v20) ?_
    funext a; apply Fin.ext
    match a with
    | ⟨0, _⟩ => show win4_2.index t (0 : Fin 2) * 1 + 1 * 0 = 0; omega
    | ⟨1, _⟩ => show win4_2.index t (1 : Fin 2) * 128 + 1 * q.val = q.val; omega
  rw [h0, h1, h2]

/-- An index of the array is in point t's block iff each coordinate is in the block's range on its axis. -/
theorem mem_blk4 (t : Fin cfg4.N) (i : S50000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v48).slice (win4_3.rect t)).set ↔ _
  rw [View.set_slice_whole, Rect.mem_set_unit]
  exact Iff.rfl

/-- Every row of the array lies in the block of the point its row number divided by 5000 names, and every point writes back. -/
theorem cover4 (i : S50000x128.Idx) : ∃ t : Fin cfg4.N, (cfg4.win 3).flush t = true ∧ i ∈ ((cfg4.win 3).blk t).view.set := by
  have hi0 : (i 0).val < 50000 := (i 0).isLt
  have hi1 : (i 1).val < 128 := (i 1).isLt
  let t : Fin cfg4.N := ⟨(i 0).val / 5000, lt_of_lt_of_eq (by omega) N_4.symm⟩
  have htv : t.val = (i 0).val / 5000 := rfl
  obtain ⟨e0r, e0c, e1r, e1c, e2r, e2c, e3r, e3c⟩ := idx_facts4 t
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- The region's output array after all ten points: the update layer of its input arrays. -/
theorem final4 (c : Dev nD) :
    (dat4 (F := Ideal) V c).arrAt 3 cfg4.N = Cert.Stages.postAgg (V c main_v47) (V c main_v18) (V c main_v20) :=
  (dat4 (F := Ideal) V c).arrAt_eq_of_cover 3 _ (fun t _ => flushed4_eq V c t) cover4

end

/-! ## Region 6: the last update layer, with the residual array added before the maximum -/

/-- The body's stored value at local row r, column q. -/
theorem pay6_apply (x0 : Vec Ideal S5000x128 .f32) (x1 : Vec Ideal S5000x1 .f32) (x2 : Vec Ideal S1x128 .f32) (x3 : Vec Ideal S5000x128 .f32) (r : Fin 5000) (q : Fin 128) :
    k6_pay1 (F := Ideal) x0 x1 x2 x3 (ix2 r q)
      = max ((x0 (ix2 r q) * x1 (ix2 r (0 : Fin 1)) + x2 (ix2 (0 : Fin 1) q)) + x3 (ix2 r q)) (Ideal.ofBits .f32 0x00000000#32) := by
  unfold k6_pay1
  rw [maximumf_apply, addf_apply, addf_apply, mulf_apply, shapeCast_self, shapeCast_self, shapeCast_self, shapeCast_self, colTo_apply_update, rowTo_apply_update]
  rfl

/-- The block index maps, decided over the grid: the row-blocked windows sit at block (t, 0), the bias row at (0, 0). -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

section
variable (V : (c : Dev nD) → (b : Ref sig .tc) → Buf (Elt Ideal) ((c : Thread nD τ).loc b))

/-- What point t writes back is block t of the update layer of the region's input arrays. -/
theorem flushed6_eq (c : Dev nD) (t : Fin cfg6.N) :
    (dat6 (F := Ideal) V c).flushed 4 t = ((cfg6.win 4).blk t).view.read (Elt Ideal) (Cert.Stages.postAggRes (V c main_v59) (V c main_v18) (V c main_v21) (V c main_v24)) := by
  show (cfg6.win 4).cut (grid6.coords t) ((dat6 V c).after 4 t) = _
  rw [after6_4]
  unfold out6_4
  rw [View.canon_unit_zero hz_update]
  simp only [View.ld_unit_zero (S := S5000x128) hz_update, View.ld_unit_zero (S := S5000x1) hz_update, View.ld_unit_zero (S := S1x128) hz_update]
  obtain ⟨e0r, e0c, e1r, e1c, e2r, e2c, e3r, e3c, e4r, e4c⟩ := idx_facts6 t
  have ht : t.val < 10 := lt_of_lt_of_eq t.isLt N_6
  funext j
  obtain ⟨r, q, rfl⟩ : ∃ (r : Fin 5000) (q : Fin 128), j = ix2 r q := ⟨j 0, j 1, eq_ix2 j⟩
  show k6_pay1 (F := Ideal) (iblk6 V c 0 t) (iblk6 V c 1 t) (iblk6 V c 2 t) (iblk6 V c 3 t) (ix2 r q)
    = Cert.Stages.postAggRes (V c main_v59) (V c main_v18) (V c main_v21) (V c main_v24) (((cfg6.win 4).blk t).view.emb (ix2 r q))
  refine (pay6_apply _ _ _ _ r q).trans ?_
  have hr : r.val < 5000 := r.isLt
  -- local (r, q) of block t is row 5000·t + r, column q of the array
  have hemb : ((cfg6.win 4).blk t).view.emb (ix2 r q) = ix2 (⟨5000 * t.val + r.val, by omega⟩ : Fin 50000) q := by
    funext a; apply Fin.ext
    match a with
    | ⟨0, _⟩ => show win6_4.index t (0 : Fin 2) * 5000 + 1 * r.val = 5000 * t.val + r.val; omega
    | ⟨1, _⟩ => show win6_4.index t (1 : Fin 2) * 128 + 1 * q.val = q.val; omega
  rw [hemb, Cert.Stages.postAggRes_apply]
  have h0 : iblk6 V c 0 t (ix2 r q) = V c main_v59 (ix2 (⟨5000 * t.val + r.val, by omega⟩ : Fin 50000) q) := by
    show V c main_v59 (((cfg6.win 0).blk t).view.emb (ix2 r q)) = _
    refine congrArg (V c main_v59) ?_
    funext a; apply Fin.ext
    match a with
    | ⟨0, _⟩ => show win6_0.index t (0 : Fin 2) * 5000 + 1 * r.val = 5000 * t.val + r.val; omega
    | ⟨1, _⟩ => show win6_0.index t (1 : Fin 2) * 128 + 1 * q.val = q.val; omega
  have h1 : iblk6 V c 1 t (ix2 r (0 : Fin 1)) = V c main_v18 (ix2 (⟨5000 * t.val + r.val, by omega⟩ : Fin 50000) (0 : Fin 1)) := by
    show V c main_v18 (((cfg6.win 1).blk t).view.emb (ix2 r (0 : Fin 1))) = _
    refine congrArg (V c main_v18) ?_
    funext a; apply Fin.ext
    match a with
    | ⟨0, _⟩ => show win6_1.index t (0 : Fin 2) * 5000 + 1 * r.val = 5000 * t.val + r.val; omega
    | ⟨1, _⟩ => show win6_1.index t (1 : Fin 2) * 1 + 1 * 0 = 0; omega
  have h2 : iblk6 V c 2 t (ix2 (0 : Fin 1) q) = V c main_v21 (ix2 (0 : Fin 1) q) := by
    show V c main_v21 (((cfg6.win 2).blk t).view.emb (ix2 (0 : Fin 1) q)) = _
    refine congrArg (V c main_v21) ?_
    funext a; apply Fin.ext
    match a with
    | ⟨0, _⟩ => show win6_2.index t (0 : Fin 2) * 1 + 1 * 0 = 0; omega
    | ⟨1, _⟩ => show win6_2.index t (1 : Fin 2) * 128 + 1 * q.val = q.val; omega
  have h3 : iblk6 V c 3 t (ix2 r q) = V c main_v24 (ix2 (⟨5000 * t.val + r.val, by omega⟩ : Fin 50000) q) := by
    show V c main_v24 (((cfg6.win 3).blk t).view.emb (ix2 r q)) = _
    refine congrArg (V c main_v24) ?_
    funext a; apply Fin.ext
    match a with
    | ⟨0, _⟩ => show win6_3.index t (0 : Fin 2) * 5000 + 1 * r.val = 5000 * t.val + r.val; omega
    | ⟨1, _⟩ => show win6_3.index t (1 : Fin 2) * 128 + 1 * q.val = q.val; omega
  rw [h0, h1, h2, h3]

/-- An index of the array is in point t's block iff each coordinate is in the block's range on its axis. -/
theorem mem_blk6 (t : Fin cfg6.N) (i : S50000x128.Idx) :
    i ∈ ((cfg6.win 4).blk t).view.set ↔ ∀ a : Fin 2, win6_4.index t a * S5000x128.size a ≤ (i a).val ∧ (i a).val < win6_4.index t a * S5000x128.size a + S5000x128.size a := by
  show i ∈ ((View.whole main_v60).slice (win6_4.rect t)).set ↔ _
  rw [View.set_slice_whole, Rect.mem_set_unit]
  exact Iff.rfl

/-- Every row of the array lies in the block of the point its row number divided by 5000 names, and every point writes back. -/
theorem cover6 (i : S50000x128.Idx) : ∃ t : Fin cfg6.N, (cfg6.win 4).flush t = true ∧ i ∈ ((cfg6.win 4).blk t).view.set := by
  have hi0 : (i 0).val < 50000 := (i 0).isLt
  have hi1 : (i 1).val < 128 := (i 1).isLt
  let t : Fin cfg6.N := ⟨(i 0).val / 5000, lt_of_lt_of_eq (by omega) N_6.symm⟩
  have htv : t.val = (i 0).val / 5000 := rfl
  obtain ⟨e0r, e0c, e1r, e1c, e2r, e2c, e3r, e3c, e4r, e4c⟩ := idx_facts6 t
  refine ⟨t, flush6_4 t, ?_⟩
  rw [mem_blk6]
  intro a
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 128 ≤ (i 1).val ∧ (i 1).val < win6_4.index t (1 : Fin 2) * 128 + 128; omega

/-- The region's output array after all ten points: the update layer of its input arrays. -/
theorem final6 (c : Dev nD) :
    (dat6 (F := Ideal) V c).arrAt 4 cfg6.N = Cert.Stages.postAggRes (V c main_v59) (V c main_v18) (V c main_v21) (V c main_v24) :=
  (dat6 (F := Ideal) V c).arrAt_eq_of_cover 4 _ (fun t _ => flushed6_eq V c t) cover6

end

end Cert.KernelIdeal.RegionValue

end
-- ==== Proof.Fold.lean ====
/-
  The kernel program's result array, read through the run. Between the launch memory and the return the buffers'
  contents change at sixteen boundaries: a stretch of host operations rewrites the buffers it names, and a region
  rewrites its output array only. So an argument array, and a result of the first host stretch (the two scaling
  columns and the bias rows), is found unchanged at every later boundary, and each region's output array is the
  region's layer of what its input arrays held on entry. Following the program in order gives the residual, then three
  rounds of messages, neighbourhood sums and updates, then the output layer: the network of `Cert.Stages.forward`.
-/
import proofs.«154122_j45311904973171_1_alg».proof.Proof.Gen.KernelIdeal.Frame
import proofs.«154122_j45311904973171_1_alg».proof.Proof.Gen.ReferenceIdeal
import proofs.«154122_j45311904973171_1_alg».proof.Proof.Stages
import proofs.«154122_j45311904973171_1_alg».proof.Proof.RegionDense
import proofs.«154122_j45311904973171_1_alg».proof.Proof.RegionMessage
import proofs.«154122_j45311904973171_1_alg».proof.Proof.RegionUpdate
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## One boundary to the next -/

/-- A buffer that the operations of this host stretch do not write keeps its contents across it. -/
theorem keep0 (b : Ref sig .tc) (hb : b ∉ [main_cst, main_v0, main_cst_0, main_v1, main_v2, main_v3, main_cst_1, main_v4, main_v5, main_v6, main_cst_2, main_v7, main_v8, main_cst_3]) : W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))
/-- A buffer that the operations of this host stretch do not write keeps its contents across it. -/
theorem keep1 (b : Ref sig .tc) (hb : b ∉ [main_call0_v0, main_call0_v1, main_v9]) : W2 m ρ c (Proc.devRef .tc b) = W1 m ρ c (Proc.devRef .tc b) :=
  StableHlo.after_of_forall_not_mem (b := Proc.devRef .tc b) _ _ (List.forall_iff_forall_mem.mp (by
    simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))
/-- A buffer that the operations of this host stretch do not write keeps its contents across it. -/
theorem keep2 (b : Ref sig .tc) (hb : b ∉ [main_cst_4, main_v10, main_v11, main_cst_5, main_v12, main_v13, main_cst_6]) : W3 m ρ c (Proc.devRef .tc b) = W2 m ρ c (Proc.devRef .tc b) :=
  StableHlo.after_of_forall_not_mem (b := Proc.devRef .tc b) _ _ (List.forall_iff_forall_mem.mp (by
    simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))
/-- A buffer that the operations of this host stretch do not write keeps its contents across it. -/
theorem keep3 (b : Ref sig .tc) (hb : b ∉ [main_call1_v0, main_call1_v1, main_v14]) : W4 m ρ c (Proc.devRef .tc b) = W3 m ρ c (Proc.devRef .tc b) :=
  StableHlo.after_of_forall_not_mem (b := Proc.devRef .tc b) _ _ (List.forall_iff_forall_mem.mp (by
    simp only [hostOps0_3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))
/-- A buffer that the operations of this host stretch do not write keeps its contents across it. -/
theorem keep4 (b : Ref sig .tc) (hb : b ∉ [main_cst_7, main_v15, main_v16, main_v17, main_v18, main_v19, main_v20, main_v21, main_v22, main_v23]) : W5 m ρ c (Proc.devRef .tc b) = W4 m ρ c (Proc.devRef .tc b) :=
  StableHlo.after_of_forall_not_mem (b := Proc.devRef .tc b) _ _ (List.forall_iff_forall_mem.mp (by
    simp only [hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))
/-- Across region 0 every buffer but its output array keeps its contents: an input array is read only, the rest is untouched. -/
theorem keep5 (b : Ref sig .tc) (hb : b ≠ main_v24) : W6 m ρ c (Proc.devRef .tc b) = W5 m ρ c (Proc.devRef .tc b) := by
  by_cases h0 : b = main_arg0
  · subst h0; exact (W6_arr m ρ c 0).trans (((dat0 (V5 m ρ) c).arrAt_in 0 rfl _).trans (A_eq0 (V5 m ρ) c 0))
  by_cases h1 : b = main_arg9
  · subst h1; exact (W6_arr m ρ c 1).trans (((dat0 (V5 m ρ) c).arrAt_in 1 rfl _).trans (A_eq0 (V5 m ρ) c 1))
  by_cases h2 : b = main_v22
  · subst h2; exact (W6_arr m ρ c 2).trans (((dat0 (V5 m ρ) c).arrAt_in 2 rfl _).trans (A_eq0 (V5 m ρ) c 2))
  exact W6_of_ne m ρ c b (fun w => by
    fin_cases w <;> first | exact Ne.symm h0 | exact Ne.symm h1 | exact Ne.symm h2 | exact Ne.symm hb)
/-- Across region 1 every buffer but its output array keeps its contents: an input array is read only, the rest is untouched. -/
theorem keep6 (b : Ref sig .tc) (hb : b ≠ main_v25) : W7 m ρ c (Proc.devRef .tc b) = W6 m ρ c (Proc.devRef .tc b) := by
  by_cases h0 : b = main_arg0
  · subst h0; exact (W7_arr m ρ c 0).trans (((dat1 (V6 m ρ) c).arrAt_in 0 rfl _).trans (A_eq1 (V6 m ρ) c 0))
  by_cases h1 : b = main_v17
  · subst h1; exact (W7_arr m ρ c 1).trans (((dat1 (V6 m ρ) c).arrAt_in 1 rfl _).trans (A_eq1 (V6 m ρ) c 1))
  by_cases h2 : b = main_arg3
  · subst h2; exact (W7_arr m ρ c 2).trans (((dat1 (V6 m ρ) c).arrAt_in 2 rfl _).trans (A_eq1 (V6 m ρ) c 2))
  exact W7_of_ne m ρ c b (fun w => by
    fin_cases w <;> first | exact Ne.symm h0 | exact Ne.symm h1 | exact Ne.symm h2 | exact Ne.symm hb)
/-- A buffer that the operations of this host stretch do not write keeps its contents across it. -/
theorem keep7 (b : Ref sig .tc) (hb : b ∉ [main_c, main_v26, main_v27, main_c_8, main_v28, main_v29, main_v30, main_v31, main_v32, main_cst_9, main_v33, main_v34, main_v35]) : W8 m ρ c (Proc.devRef .tc b) = W7 m ρ c (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))
/-- Across region 2 every buffer but its output array keeps its contents: an input array is read only, the rest is untouched. -/
theorem keep8 (b : Ref sig .tc) (hb : b ≠ main_v36) : W9 m ρ c (Proc.devRef .tc b) = W8 m ρ c (Proc.devRef .tc b) := by
  by_cases h0 : b = main_v35
  · subst h0; exact (W9_arr m ρ c 0).trans (((dat2 (V8 m ρ) c).arrAt_in 0 rfl _).trans (A_eq2 (V8 m ρ) c 0))
  by_cases h1 : b = main_v18
  · subst h1; exact (W9_arr m ρ c 1).trans (((dat2 (V8 m ρ) c).arrAt_in 1 rfl _).trans (A_eq2 (V8 m ρ) c 1))
  by_cases h2 : b = main_v19
  · subst h2; exact (W9_arr m ρ c 2).trans (((dat2 (V8 m ρ) c).arrAt_in 2 rfl _).trans (A_eq2 (V8 m ρ) c 2))
  exact W9_of_ne m ρ c b (fun w => by
    fin_cases w <;> first | exact Ne.symm h0 | exact Ne.symm h1 | exact Ne.symm h2 | exact Ne.symm hb)
/-- Across region 3 every buffer but its output array keeps its contents: an input array is read only, the rest is untouched. -/
theorem keep9 (b : Ref sig .tc) (hb : b ≠ main_v37) : W10 m ρ c (Proc.devRef .tc b) = W9 m ρ c (Proc.devRef .tc b) := by
  by_cases h0 : b = main_v36
  · subst h0; exact (W10_arr m ρ c 0).trans (((dat3 (V9 m ρ) c).arrAt_in 0 rfl _).trans (A_eq3 (V9 m ρ) c 0))
  by_cases h1 : b = main_v17
  · subst h1; exact (W10_arr m ρ c 1).trans (((dat3 (V9 m ρ) c).arrAt_in 1 rfl _).trans (A_eq3 (V9 m ρ) c 1))
  by_cases h2 : b = main_arg5
  · subst h2; exact (W10_arr m ρ c 2).trans (((dat3 (V9 m ρ) c).arrAt_in 2 rfl _).trans (A_eq3 (V9 m ρ) c 2))
  exact W10_of_ne m ρ c b (fun w => by
    fin_cases w <;> first | exact Ne.symm h0 | exact Ne.symm h1 | exact Ne.symm h2 | exact Ne.symm hb)
/-- A buffer that the operations of this host stretch do not write keeps its contents across it. -/
theorem keep10 (b : Ref sig .tc) (hb : b ∉ [main_c_10, main_v38, main_v39, main_c_11, main_v40, main_v41, main_v42, main_v43, main_v44, main_cst_12, main_v45, main_v46, main_v47]) : W11 m ρ c (Proc.devRef .tc b) = W10 m ρ c (Proc.devRef .tc b) :=
  StableHlo.after_of_forall_not_mem (b := Proc.devRef .tc b) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))
/-- Across region 4 every buffer but its output array keeps its contents: an input array is read only, the rest is untouched. -/
theorem keep11 (b : Ref sig .tc) (hb : b ≠ main_v48) : W12 m ρ c (Proc.devRef .tc b) = W11 m ρ c (Proc.devRef .tc b) := by
  by_cases h0 : b = main_v47
  · subst h0; exact (W12_arr m ρ c 0).trans (((dat4 (V11 m ρ) c).arrAt_in 0 rfl _).trans (A_eq4 (V11 m ρ) c 0))
  by_cases h1 : b = main_v18
  · subst h1; exact (W12_arr m ρ c 1).trans (((dat4 (V11 m ρ) c).arrAt_in 1 rfl _).trans (A_eq4 (V11 m ρ) c 1))
  by_cases h2 : b = main_v20
  · subst h2; exact (W12_arr m ρ c 2).trans (((dat4 (V11 m ρ) c).arrAt_in 2 rfl _).trans (A_eq4 (V11 m ρ) c 2))
  exact W12_of_ne m ρ c b (fun w => by
    fin_cases w <;> first | exact Ne.symm h0 | exact Ne.symm h1 | exact Ne.symm h2 | exact Ne.symm hb)
/-- Across region 5 every buffer but its output array keeps its contents: an input array is read only, the rest is untouched. -/
theorem keep12 (b : Ref sig .tc) (hb : b ≠ main_v49) : W13 m ρ c (Proc.devRef .tc b) = W12 m ρ c (Proc.devRef .tc b) := by
  by_cases h0 : b = main_v48
  · subst h0; exact (W13_arr m ρ c 0).trans (((dat5 (V12 m ρ) c).arrAt_in 0 rfl _).trans (A_eq5 (V12 m ρ) c 0))
  by_cases h1 : b = main_v17
  · subst h1; exact (W13_arr m ρ c 1).trans (((dat5 (V12 m ρ) c).arrAt_in 1 rfl _).trans (A_eq5 (V12 m ρ) c 1))
  by_cases h2 : b = main_arg7
  · subst h2; exact (W13_arr m ρ c 2).trans (((dat5 (V12 m ρ) c).arrAt_in 2 rfl _).trans (A_eq5 (V12 m ρ) c 2))
  exact W13_of_ne m ρ c b (fun w => by
    fin_cases w <;> first | exact Ne.symm h0 | exact Ne.symm h1 | exact Ne.symm h2 | exact Ne.symm hb)
/-- A buffer that the operations of this host stretch do not write keeps its contents across it. -/
theorem keep13 (b : Ref sig .tc) (hb : b ∉ [main_c_13, main_v50, main_v51, main_c_14, main_v52, main_v53, main_v54, main_v55, main_v56, main_cst_15, main_v57, main_v58, main_v59]) : W14 m ρ c (Proc.devRef .tc b) = W13 m ρ c (Proc.devRef .tc b) :=
  StableHlo.after_of_forall_not_mem (b := Proc.devRef .tc b) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))
/-- Across region 6 every buffer but its output array keeps its contents: an input array is read only, the rest is untouched. -/
theorem keep14 (b : Ref sig .tc) (hb : b ≠ main_v60) : W15 m ρ c (Proc.devRef .tc b) = W14 m ρ c (Proc.devRef .tc b) := by
  by_cases h0 : b = main_v59
  · subst h0; exact (W15_arr m ρ c 0).trans (((dat6 (V14 m ρ) c).arrAt_in 0 rfl _).trans (A_eq6 (V14 m ρ) c 0))
  by_cases h1 : b = main_v18
  · subst h1; exact (W15_arr m ρ c 1).trans (((dat6 (V14 m ρ) c).arrAt_in 1 rfl _).trans (A_eq6 (V14 m ρ) c 1))
  by_cases h2 : b = main_v21
  · subst h2; exact (W15_arr m ρ c 2).trans (((dat6 (V14 m ρ) c).arrAt_in 2 rfl _).trans (A_eq6 (V14 m ρ) c 2))
  by_cases h3 : b = main_v24
  · subst h3; exact (W15_arr m ρ c 3).trans (((dat6 (V14 m ρ) c).arrAt_in 3 rfl _).trans (A_eq6 (V14 m ρ) c 3))
  exact W15_of_ne m ρ c b (fun w => by
    fin_cases w <;> first | exact Ne.symm h0 | exact Ne.symm h1 | exact Ne.symm h2 | exact Ne.symm h3 | exact Ne.symm hb)
/-- Across region 7 every buffer but its output array keeps its contents: an input array is read only, the rest is untouched. -/
theorem keep15 (b : Ref sig .tc) (hb : b ≠ main_v61) : W16 m ρ c (Proc.devRef .tc b) = W15 m ρ c (Proc.devRef .tc b) := by
  by_cases h0 : b = main_v60
  · subst h0; exact (W16_arr m ρ c 0).trans (((dat7 (V15 m ρ) c).arrAt_in 0 rfl _).trans (A_eq7 (V15 m ρ) c 0))
  by_cases h1 : b = main_arg11
  · subst h1; exact (W16_arr m ρ c 1).trans (((dat7 (V15 m ρ) c).arrAt_in 1 rfl _).trans (A_eq7 (V15 m ρ) c 1))
  by_cases h2 : b = main_v23
  · subst h2; exact (W16_arr m ρ c 2).trans (((dat7 (V15 m ρ) c).arrAt_in 2 rfl _).trans (A_eq7 (V15 m ρ) c 2))
  exact W16_of_ne m ρ c b (fun w => by
    fin_cases w <;> first | exact Ne.symm h0 | exact Ne.symm h1 | exact Ne.symm h2 | exact Ne.symm hb)

/-! ## The arrays the network holds after each layer, as functions of the argument arrays -/

/-- The scaling column of the edges' source ends, and of their destination ends. -/
def dSrc : (⟨Cert.ReferenceIdeal.S50000x1, .f32⟩ : BufTy).Contents (Elt Ideal) := Cert.Stages.normCol (F := Ideal) (m ((c : Thread nD τ).loc main_arg1))
def dDst : (⟨Cert.ReferenceIdeal.S50000x1, .f32⟩ : BufTy).Contents (Elt Ideal) := Cert.Stages.normCol (F := Ideal) (m ((c : Thread nD τ).loc main_arg2))
/-- The residual: the dense layer of the input features. -/
def res : (⟨Cert.ReferenceIdeal.S50000x128, .f32⟩ : BufTy).Contents (Elt Ideal) := Cert.Stages.lin (F := Ideal) (m ((c : Thread nD τ).loc main_arg0)) (m ((c : Thread nD τ).loc main_arg9)) (Cert.Stages.row128 (F := Ideal) (m ((c : Thread nD τ).loc main_arg10)))
/-- Round 1: messages, neighbourhood sums, update. -/
def msg1 : (⟨Cert.ReferenceIdeal.S50000x128, .f32⟩ : BufTy).Contents (Elt Ideal) := Cert.Stages.preAgg (F := Ideal) (m ((c : Thread nD τ).loc main_arg0)) (dSrc m c) (m ((c : Thread nD τ).loc main_arg3))
def sum1 : (⟨Cert.ReferenceIdeal.S50000x128, .f32⟩ : BufTy).Contents (Elt Ideal) := Cert.Stages.aggregate (F := Ideal) (msg1 m c) (m ((c : Thread nD τ).loc main_arg1)) (m ((c : Thread nD τ).loc main_arg2))
def upd1 : (⟨Cert.ReferenceIdeal.S50000x128, .f32⟩ : BufTy).Contents (Elt Ideal) := Cert.Stages.postAgg (F := Ideal) (sum1 m c) (dDst m c) (Cert.Stages.row128 (F := Ideal) (m ((c : Thread nD τ).loc main_arg4)))
/-- Round 2. -/
def msg2 : (⟨Cert.ReferenceIdeal.S50000x128, .f32⟩ : BufTy).Contents (Elt Ideal) := Cert.Stages.preAgg (F := Ideal) (upd1 m c) (dSrc m c) (m ((c : Thread nD τ).loc main_arg5))
def sum2 : (⟨Cert.ReferenceIdeal.S50000x128, .f32⟩ : BufTy).Contents (Elt Ideal) := Cert.Stages.aggregate (F := Ideal) (msg2 m c) (m ((c : Thread nD τ).loc main_arg1)) (m ((c : Thread nD τ).loc main_arg2))
def upd2 : (⟨Cert.ReferenceIdeal.S50000x128, .f32⟩ : BufTy).Contents (Elt Ideal) := Cert.Stages.postAgg (F := Ideal) (sum2 m c) (dDst m c) (Cert.Stages.row128 (F := Ideal) (m ((c : Thread nD τ).loc main_arg6)))
/-- Round 3, its update taking the residual. -/
def msg3 : (⟨Cert.ReferenceIdeal.S50000x128, .f32⟩ : BufTy).Contents (Elt Ideal) := Cert.Stages.preAgg (F := Ideal) (upd2 m c) (dSrc m c) (m ((c : Thread nD τ).loc main_arg7))
def sum3 : (⟨Cert.ReferenceIdeal.S50000x128, .f32⟩ : BufTy).Contents (Elt Ideal) := Cert.Stages.aggregate (F := Ideal) (msg3 m c) (m ((c : Thread nD τ).loc main_arg1)) (m ((c : Thread nD τ).loc main_arg2))
def upd3 : (⟨Cert.ReferenceIdeal.S50000x128, .f32⟩ : BufTy).Contents (Elt Ideal) := Cert.Stages.postAggRes (F := Ideal) (sum3 m c) (dDst m c) (Cert.Stages.row128 (F := Ideal) (m ((c : Thread nD τ).loc main_arg8))) (res m c)
/-- The output layer. -/
def out : (⟨Cert.ReferenceIdeal.S50000x64, .f32⟩ : BufTy).Contents (Elt Ideal) := Cert.Stages.lin64 (F := Ideal) (upd3 m c) (m ((c : Thread nD τ).loc main_arg11)) (Cert.Stages.row64 (F := Ideal) (m ((c : Thread nD τ).loc main_arg12)))

/-- The output layer's array is the network of the argument arrays. -/
theorem out_eq_forward : out m c = Cert.Stages.forward (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := rfl

/-! ## What the host operations before the first region leave -/

/-- The first stretch counts, for every node, the edge ends an index array names there … -/
theorem count_src (Wv : Valuation τ sig (Elt Ideal)) :
    StableHlo.after hostOps0 Wv (Proc.devRef .tc main_v3) = Cert.Stages.degree (F := Ideal) (Wv (Proc.devRef .tc main_arg1)) := by
  dsimp only [hostOps0]
  after_results <;> rfl
theorem count_dst (Wv : Valuation τ sig (Elt Ideal)) :
    StableHlo.after hostOps0 Wv (Proc.devRef .tc main_v6) = Cert.Stages.degree (F := Ideal) (Wv (Proc.devRef .tc main_arg2)) := by
  dsimp only [hostOps0]
  after_results <;> rfl
/-- … marks the nodes whose count of source ends is positive, and holds the constant one. -/
theorem positive_src (Wv : Valuation τ sig (Elt Ideal)) :
    StableHlo.after hostOps0 Wv (Proc.devRef .tc main_v8) = cmpf .ogt (Cert.Stages.degree (F := Ideal) (Wv (Proc.devRef .tc main_arg1))) (broadcastInDim Cert.ReferenceIdeal.S50000 ![] Cert.ReferenceIdeal.Facts₀.bcast_S_S50000 (constant (F := Ideal) Cert.ReferenceIdeal.S_ .f32 0x00000000#32)) := by
  dsimp only [hostOps0]
  after_results <;> rfl
theorem one_src (Wv : Valuation τ sig (Elt Ideal)) :
    StableHlo.after hostOps0 Wv (Proc.devRef .tc main_cst_3) = constant (F := Ideal) Cert.ReferenceIdeal.S_ .f32 0x3F800000#32 := by
  dsimp only [hostOps0]
  after_results <;> rfl
/-- The second stretch replaces a zero count of source ends by one. -/
theorem floor_src (Wv : Valuation τ sig (Elt Ideal)) :
    StableHlo.after hostOps0_1 Wv (Proc.devRef .tc main_v9) = select (Wv (Proc.devRef .tc main_v8) : (⟨S50000, .i1⟩ : BufTy).Contents (Elt Ideal)) (Wv (Proc.devRef .tc main_v3) : (⟨S50000, .f32⟩ : BufTy).Contents (Elt Ideal)) (broadcastInDim S50000 ![] bcast_S_S50000 (id (Wv (Proc.devRef .tc main_cst_3) : (⟨S_, .f32⟩ : BufTy).Contents (Elt Ideal)))) := by
  dsimp only [hostOps0_1]
  after_results <;> rfl
/-- The third stretch raises the source counts to the power −1/2, marks the positive destination counts, and holds the constant one. -/
theorem power_src (Wv : Valuation τ sig (Elt Ideal)) :
    StableHlo.after hostOps0_2 Wv (Proc.devRef .tc main_v11) = Host.powf (Wv (Proc.devRef .tc main_v9) : (⟨S50000, .f32⟩ : BufTy).Contents (Elt Ideal)) (broadcastInDim S50000 ![] bcast_S_S50000 (constant (F := Ideal) S_ .f32 0xBF000000#32)) := by
  dsimp only [hostOps0_2]
  after_results <;> rfl
theorem positive_dst (Wv : Valuation τ sig (Elt Ideal)) :
    StableHlo.after hostOps0_2 Wv (Proc.devRef .tc main_v13) = cmpf .ogt (Wv (Proc.devRef .tc main_v6) : (⟨S50000, .f32⟩ : BufTy).Contents (Elt Ideal)) (broadcastInDim S50000 ![] bcast_S_S50000 (constant (F := Ideal) S_ .f32 0x00000000#32)) := by
  dsimp only [hostOps0_2]
  after_results <;> rfl
theorem one_dst (Wv : Valuation τ sig (Elt Ideal)) :
    StableHlo.after hostOps0_2 Wv (Proc.devRef .tc main_cst_6) = constant (F := Ideal) S_ .f32 0x3F800000#32 := by
  dsimp only [hostOps0_2]
  after_results <;> rfl
/-- The fourth stretch replaces a zero count of destination ends by one. -/
theorem floor_dst (Wv : Valuation τ sig (Elt Ideal)) :
    StableHlo.after hostOps0_3 Wv (Proc.devRef .tc main_v14) = select (Wv (Proc.devRef .tc main_v13) : (⟨S50000, .i1⟩ : BufTy).Contents (Elt Ideal)) (Wv (Proc.devRef .tc main_v6) : (⟨S50000, .f32⟩ : BufTy).Contents (Elt Ideal)) (broadcastInDim S50000 ![] bcast_S_S50000 (id (Wv (Proc.devRef .tc main_cst_6) : (⟨S_, .f32⟩ : BufTy).Contents (Elt Ideal)))) := by
  dsimp only [hostOps0_3]
  after_results <;> rfl
/-- The fifth stretch writes the source powers as a column, and the destination counts to the power −1/2 as a column. -/
theorem column_src (Wv : Valuation τ sig (Elt Ideal)) :
    StableHlo.after hostOps0_4 Wv (Proc.devRef .tc main_v17) = broadcastInDim S50000x1 ![0] bcast_S50000_S50000x1_0 (Wv (Proc.devRef .tc main_v11) : (⟨S50000, .f32⟩ : BufTy).Contents (Elt Ideal)) := by
  dsimp only [hostOps0_4]
  after_results <;> rfl
theorem column_dst (Wv : Valuation τ sig (Elt Ideal)) :
    StableHlo.after hostOps0_4 Wv (Proc.devRef .tc main_v18) = broadcastInDim S50000x1 ![0] bcast_S50000_S50000x1_0 (Host.powf (Wv (Proc.devRef .tc main_v14) : (⟨S50000, .f32⟩ : BufTy).Contents (Elt Ideal)) (broadcastInDim S50000 ![] bcast_S_S50000 (constant (F := Ideal) S_ .f32 0xBF000000#32))) := by
  dsimp only [hostOps0_4]
  after_results <;> rfl

theorem entry_main_v17 : W5 m ρ c (Proc.devRef .tc main_v17) = dSrc m c := by
  refine (column_src (W4 m ρ c)).trans ?_
  rw [keep3 m ρ c main_v11 (by decide), show W3 m ρ c _ = _ from power_src (W2 m ρ c), show W2 m ρ c _ = _ from floor_src (W1 m ρ c),
    show W1 m ρ c _ = _ from positive_src (W0 m ρ c), show W1 m ρ c _ = _ from count_src (W0 m ρ c), show W1 m ρ c _ = _ from one_src (W0 m ρ c)]
  rfl
theorem entry_main_v18 : W5 m ρ c (Proc.devRef .tc main_v18) = dDst m c := by
  refine (column_dst (W4 m ρ c)).trans ?_
  rw [show W4 m ρ c _ = _ from floor_dst (W3 m ρ c), show W3 m ρ c _ = _ from positive_dst (W2 m ρ c), keep2 m ρ c main_v6 (by decide),
    show W3 m ρ c _ = _ from one_dst (W2 m ρ c), keep1 m ρ c main_v6 (by decide), show W1 m ρ c _ = _ from count_dst (W0 m ρ c)]
  rfl
theorem entry_main_v19 : W5 m ρ c (Proc.devRef .tc main_v19) = (Cert.Stages.row128 (F := Ideal) (m ((c : Thread nD τ).loc main_arg4))) := by
  show StableHlo.after hostOps0_4 (StableHlo.after hostOps0_3 (StableHlo.after hostOps0_2 (StableHlo.after hostOps0_1 (StableHlo.after hostOps0 (W0 m ρ c))))) (Proc.devRef .tc main_v19) = _
  dsimp only [hostOps0, hostOps0_1, hostOps0_2, hostOps0_3, hostOps0_4]
  after_results
  rfl
theorem entry_main_v20 : W5 m ρ c (Proc.devRef .tc main_v20) = (Cert.Stages.row128 (F := Ideal) (m ((c : Thread nD τ).loc main_arg6))) := by
  show StableHlo.after hostOps0_4 (StableHlo.after hostOps0_3 (StableHlo.after hostOps0_2 (StableHlo.after hostOps0_1 (StableHlo.after hostOps0 (W0 m ρ c))))) (Proc.devRef .tc main_v20) = _
  dsimp only [hostOps0, hostOps0_1, hostOps0_2, hostOps0_3, hostOps0_4]
  after_results
  rfl
theorem entry_main_v21 : W5 m ρ c (Proc.devRef .tc main_v21) = (Cert.Stages.row128 (F := Ideal) (m ((c : Thread nD τ).loc main_arg8))) := by
  show StableHlo.after hostOps0_4 (StableHlo.after hostOps0_3 (StableHlo.after hostOps0_2 (StableHlo.after hostOps0_1 (StableHlo.after hostOps0 (W0 m ρ c))))) (Proc.devRef .tc main_v21) = _
  dsimp only [hostOps0, hostOps0_1, hostOps0_2, hostOps0_3, hostOps0_4]
  after_results
  rfl
theorem entry_main_v22 : W5 m ρ c (Proc.devRef .tc main_v22) = (Cert.Stages.row128 (F := Ideal) (m ((c : Thread nD τ).loc main_arg10))) := by
  show StableHlo.after hostOps0_4 (StableHlo.after hostOps0_3 (StableHlo.after hostOps0_2 (StableHlo.after hostOps0_1 (StableHlo.after hostOps0 (W0 m ρ c))))) (Proc.devRef .tc main_v22) = _
  dsimp only [hostOps0, hostOps0_1, hostOps0_2, hostOps0_3, hostOps0_4]
  after_results
  rfl
theorem entry_main_v23 : W5 m ρ c (Proc.devRef .tc main_v23) = (Cert.Stages.row64 (F := Ideal) (m ((c : Thread nD τ).loc main_arg12))) := by
  show StableHlo.after hostOps0_4 (StableHlo.after hostOps0_3 (StableHlo.after hostOps0_2 (StableHlo.after hostOps0_1 (StableHlo.after hostOps0 (W0 m ρ c))))) (Proc.devRef .tc main_v23) = _
  dsimp only [hostOps0, hostOps0_1, hostOps0_2, hostOps0_3, hostOps0_4]
  after_results
  rfl

/-! ## The neighbourhood sum of a host stretch, from any contents -/
theorem sum_hostOps2 (Wv : Valuation τ sig (Elt Ideal)) :
    StableHlo.after hostOps2 Wv (Proc.devRef .tc main_v35) = Cert.Stages.aggregate (F := Ideal) (Wv (Proc.devRef .tc main_v25)) (Wv (Proc.devRef .tc main_arg1)) (Wv (Proc.devRef .tc main_arg2)) := by
  dsimp only [hostOps2]
  after_results
  rfl
theorem sum_hostOps4 (Wv : Valuation τ sig (Elt Ideal)) :
    StableHlo.after hostOps4 Wv (Proc.devRef .tc main_v47) = Cert.Stages.aggregate (F := Ideal) (Wv (Proc.devRef .tc main_v37)) (Wv (Proc.devRef .tc main_arg1)) (Wv (Proc.devRef .tc main_arg2)) := by
  dsimp only [hostOps4]
  after_results
  rfl
theorem sum_hostOps6 (Wv : Valuation τ sig (Elt Ideal)) :
    StableHlo.after hostOps6 Wv (Proc.devRef .tc main_v59) = Cert.Stages.aggregate (F := Ideal) (Wv (Proc.devRef .tc main_v49)) (Wv (Proc.devRef .tc main_arg1)) (Wv (Proc.devRef .tc main_arg2)) := by
  dsimp only [hostOps6]
  after_results
  rfl

/-! ## The argument arrays and the first stretch's results at the later boundaries -/
theorem at5_main_arg0 : W5 m ρ c (Proc.devRef .tc main_arg0) = (m ((c : Thread nD τ).loc main_arg0)) :=
  ((keep4 m ρ c main_arg0 (by decide)).trans ((keep3 m ρ c main_arg0 (by decide)).trans ((keep2 m ρ c main_arg0 (by decide)).trans ((keep1 m ρ c main_arg0 (by decide)).trans (keep0 m ρ c main_arg0 (by decide)))))).trans rfl
theorem at5_main_arg9 : W5 m ρ c (Proc.devRef .tc main_arg9) = (m ((c : Thread nD τ).loc main_arg9)) :=
  ((keep4 m ρ c main_arg9 (by decide)).trans ((keep3 m ρ c main_arg9 (by decide)).trans ((keep2 m ρ c main_arg9 (by decide)).trans ((keep1 m ρ c main_arg9 (by decide)).trans (keep0 m ρ c main_arg9 (by decide)))))).trans rfl
theorem at6_main_arg0 : W6 m ρ c (Proc.devRef .tc main_arg0) = (m ((c : Thread nD τ).loc main_arg0)) :=
  ((keep5 m ρ c main_arg0 (by decide)).trans ((keep4 m ρ c main_arg0 (by decide)).trans ((keep3 m ρ c main_arg0 (by decide)).trans ((keep2 m ρ c main_arg0 (by decide)).trans ((keep1 m ρ c main_arg0 (by decide)).trans (keep0 m ρ c main_arg0 (by decide))))))).trans rfl
theorem at6_main_arg3 : W6 m ρ c (Proc.devRef .tc main_arg3) = (m ((c : Thread nD τ).loc main_arg3)) :=
  ((keep5 m ρ c main_arg3 (by decide)).trans ((keep4 m ρ c main_arg3 (by decide)).trans ((keep3 m ρ c main_arg3 (by decide)).trans ((keep2 m ρ c main_arg3 (by decide)).trans ((keep1 m ρ c main_arg3 (by decide)).trans (keep0 m ρ c main_arg3 (by decide))))))).trans rfl
theorem at7_main_arg1 : W7 m ρ c (Proc.devRef .tc main_arg1) = (m ((c : Thread nD τ).loc main_arg1)) :=
  ((keep6 m ρ c main_arg1 (by decide)).trans ((keep5 m ρ c main_arg1 (by decide)).trans ((keep4 m ρ c main_arg1 (by decide)).trans ((keep3 m ρ c main_arg1 (by decide)).trans ((keep2 m ρ c main_arg1 (by decide)).trans ((keep1 m ρ c main_arg1 (by decide)).trans (keep0 m ρ c main_arg1 (by decide)))))))).trans rfl
theorem at7_main_arg2 : W7 m ρ c (Proc.devRef .tc main_arg2) = (m ((c : Thread nD τ).loc main_arg2)) :=
  ((keep6 m ρ c main_arg2 (by decide)).trans ((keep5 m ρ c main_arg2 (by decide)).trans ((keep4 m ρ c main_arg2 (by decide)).trans ((keep3 m ρ c main_arg2 (by decide)).trans ((keep2 m ρ c main_arg2 (by decide)).trans ((keep1 m ρ c main_arg2 (by decide)).trans (keep0 m ρ c main_arg2 (by decide)))))))).trans rfl
theorem at9_main_arg5 : W9 m ρ c (Proc.devRef .tc main_arg5) = (m ((c : Thread nD τ).loc main_arg5)) :=
  ((keep8 m ρ c main_arg5 (by decide)).trans ((keep7 m ρ c main_arg5 (by decide)).trans ((keep6 m ρ c main_arg5 (by decide)).trans ((keep5 m ρ c main_arg5 (by decide)).trans ((keep4 m ρ c main_arg5 (by decide)).trans ((keep3 m ρ c main_arg5 (by decide)).trans ((keep2 m ρ c main_arg5 (by decide)).trans ((keep1 m ρ c main_arg5 (by decide)).trans (keep0 m ρ c main_arg5 (by decide)))))))))).trans rfl
theorem at10_main_arg1 : W10 m ρ c (Proc.devRef .tc main_arg1) = (m ((c : Thread nD τ).loc main_arg1)) :=
  ((keep9 m ρ c main_arg1 (by decide)).trans ((keep8 m ρ c main_arg1 (by decide)).trans ((keep7 m ρ c main_arg1 (by decide)).trans ((keep6 m ρ c main_arg1 (by decide)).trans ((keep5 m ρ c main_arg1 (by decide)).trans ((keep4 m ρ c main_arg1 (by decide)).trans ((keep3 m ρ c main_arg1 (by decide)).trans ((keep2 m ρ c main_arg1 (by decide)).trans ((keep1 m ρ c main_arg1 (by decide)).trans (keep0 m ρ c main_arg1 (by decide))))))))))).trans rfl
theorem at10_main_arg2 : W10 m ρ c (Proc.devRef .tc main_arg2) = (m ((c : Thread nD τ).loc main_arg2)) :=
  ((keep9 m ρ c main_arg2 (by decide)).trans ((keep8 m ρ c main_arg2 (by decide)).trans ((keep7 m ρ c main_arg2 (by decide)).trans ((keep6 m ρ c main_arg2 (by decide)).trans ((keep5 m ρ c main_arg2 (by decide)).trans ((keep4 m ρ c main_arg2 (by decide)).trans ((keep3 m ρ c main_arg2 (by decide)).trans ((keep2 m ρ c main_arg2 (by decide)).trans ((keep1 m ρ c main_arg2 (by decide)).trans (keep0 m ρ c main_arg2 (by decide))))))))))).trans rfl
theorem at12_main_arg7 : W12 m ρ c (Proc.devRef .tc main_arg7) = (m ((c : Thread nD τ).loc main_arg7)) :=
  ((keep11 m ρ c main_arg7 (by decide)).trans ((keep10 m ρ c main_arg7 (by decide)).trans ((keep9 m ρ c main_arg7 (by decide)).trans ((keep8 m ρ c main_arg7 (by decide)).trans ((keep7 m ρ c main_arg7 (by decide)).trans ((keep6 m ρ c main_arg7 (by decide)).trans ((keep5 m ρ c main_arg7 (by decide)).trans ((keep4 m ρ c main_arg7 (by decide)).trans ((keep3 m ρ c main_arg7 (by decide)).trans ((keep2 m ρ c main_arg7 (by decide)).trans ((keep1 m ρ c main_arg7 (by decide)).trans (keep0 m ρ c main_arg7 (by decide))))))))))))).trans rfl
theorem at13_main_arg1 : W13 m ρ c (Proc.devRef .tc main_arg1) = (m ((c : Thread nD τ).loc main_arg1)) :=
  ((keep12 m ρ c main_arg1 (by decide)).trans ((keep11 m ρ c main_arg1 (by decide)).trans ((keep10 m ρ c main_arg1 (by decide)).trans ((keep9 m ρ c main_arg1 (by decide)).trans ((keep8 m ρ c main_arg1 (by decide)).trans ((keep7 m ρ c main_arg1 (by decide)).trans ((keep6 m ρ c main_arg1 (by decide)).trans ((keep5 m ρ c main_arg1 (by decide)).trans ((keep4 m ρ c main_arg1 (by decide)).trans ((keep3 m ρ c main_arg1 (by decide)).trans ((keep2 m ρ c main_arg1 (by decide)).trans ((keep1 m ρ c main_arg1 (by decide)).trans (keep0 m ρ c main_arg1 (by decide)))))))))))))).trans rfl
theorem at13_main_arg2 : W13 m ρ c (Proc.devRef .tc main_arg2) = (m ((c : Thread nD τ).loc main_arg2)) :=
  ((keep12 m ρ c main_arg2 (by decide)).trans ((keep11 m ρ c main_arg2 (by decide)).trans ((keep10 m ρ c main_arg2 (by decide)).trans ((keep9 m ρ c main_arg2 (by decide)).trans ((keep8 m ρ c main_arg2 (by decide)).trans ((keep7 m ρ c main_arg2 (by decide)).trans ((keep6 m ρ c main_arg2 (by decide)).trans ((keep5 m ρ c main_arg2 (by decide)).trans ((keep4 m ρ c main_arg2 (by decide)).trans ((keep3 m ρ c main_arg2 (by decide)).trans ((keep2 m ρ c main_arg2 (by decide)).trans ((keep1 m ρ c main_arg2 (by decide)).trans (keep0 m ρ c main_arg2 (by decide)))))))))))))).trans rfl
theorem at15_main_arg11 : W15 m ρ c (Proc.devRef .tc main_arg11) = (m ((c : Thread nD τ).loc main_arg11)) :=
  ((keep14 m ρ c main_arg11 (by decide)).trans ((keep13 m ρ c main_arg11 (by decide)).trans ((keep12 m ρ c main_arg11 (by decide)).trans ((keep11 m ρ c main_arg11 (by decide)).trans ((keep10 m ρ c main_arg11 (by decide)).trans ((keep9 m ρ c main_arg11 (by decide)).trans ((keep8 m ρ c main_arg11 (by decide)).trans ((keep7 m ρ c main_arg11 (by decide)).trans ((keep6 m ρ c main_arg11 (by decide)).trans ((keep5 m ρ c main_arg11 (by decide)).trans ((keep4 m ρ c main_arg11 (by decide)).trans ((keep3 m ρ c main_arg11 (by decide)).trans ((keep2 m ρ c main_arg11 (by decide)).trans ((keep1 m ρ c main_arg11 (by decide)).trans (keep0 m ρ c main_arg11 (by decide)))))))))))))))).trans rfl
theorem at6_main_v17 : W6 m ρ c (Proc.devRef .tc main_v17) = dSrc m c :=
  (keep5 m ρ c main_v17 (by decide)).trans (entry_main_v17 m ρ c)
theorem at9_main_v17 : W9 m ρ c (Proc.devRef .tc main_v17) = dSrc m c :=
  ((keep8 m ρ c main_v17 (by decide)).trans ((keep7 m ρ c main_v17 (by decide)).trans ((keep6 m ρ c main_v17 (by decide)).trans (keep5 m ρ c main_v17 (by decide))))).trans (entry_main_v17 m ρ c)
theorem at12_main_v17 : W12 m ρ c (Proc.devRef .tc main_v17) = dSrc m c :=
  ((keep11 m ρ c main_v17 (by decide)).trans ((keep10 m ρ c main_v17 (by decide)).trans ((keep9 m ρ c main_v17 (by decide)).trans ((keep8 m ρ c main_v17 (by decide)).trans ((keep7 m ρ c main_v17 (by decide)).trans ((keep6 m ρ c main_v17 (by decide)).trans (keep5 m ρ c main_v17 (by decide)))))))).trans (entry_main_v17 m ρ c)
theorem at8_main_v18 : W8 m ρ c (Proc.devRef .tc main_v18) = dDst m c :=
  ((keep7 m ρ c main_v18 (by decide)).trans ((keep6 m ρ c main_v18 (by decide)).trans (keep5 m ρ c main_v18 (by decide)))).trans (entry_main_v18 m ρ c)
theorem at11_main_v18 : W11 m ρ c (Proc.devRef .tc main_v18) = dDst m c :=
  ((keep10 m ρ c main_v18 (by decide)).trans ((keep9 m ρ c main_v18 (by decide)).trans ((keep8 m ρ c main_v18 (by decide)).trans ((keep7 m ρ c main_v18 (by decide)).trans ((keep6 m ρ c main_v18 (by decide)).trans (keep5 m ρ c main_v18 (by decide))))))).trans (entry_main_v18 m ρ c)
theorem at14_main_v18 : W14 m ρ c (Proc.devRef .tc main_v18) = dDst m c :=
  ((keep13 m ρ c main_v18 (by decide)).trans ((keep12 m ρ c main_v18 (by decide)).trans ((keep11 m ρ c main_v18 (by decide)).trans ((keep10 m ρ c main_v18 (by decide)).trans ((keep9 m ρ c main_v18 (by decide)).trans ((keep8 m ρ c main_v18 (by decide)).trans ((keep7 m ρ c main_v18 (by decide)).trans ((keep6 m ρ c main_v18 (by decide)).trans (keep5 m ρ c main_v18 (by decide)))))))))).trans (entry_main_v18 m ρ c)
theorem at8_main_v19 : W8 m ρ c (Proc.devRef .tc main_v19) = (Cert.Stages.row128 (F := Ideal) (m ((c : Thread nD τ).loc main_arg4))) :=
  ((keep7 m ρ c main_v19 (by decide)).trans ((keep6 m ρ c main_v19 (by decide)).trans (keep5 m ρ c main_v19 (by decide)))).trans (entry_main_v19 m ρ c)
theorem at11_main_v20 : W11 m ρ c (Proc.devRef .tc main_v20) = (Cert.Stages.row128 (F := Ideal) (m ((c : Thread nD τ).loc main_arg6))) :=
  ((keep10 m ρ c main_v20 (by decide)).trans ((keep9 m ρ c main_v20 (by decide)).trans ((keep8 m ρ c main_v20 (by decide)).trans ((keep7 m ρ c main_v20 (by decide)).trans ((keep6 m ρ c main_v20 (by decide)).trans (keep5 m ρ c main_v20 (by decide))))))).trans (entry_main_v20 m ρ c)
theorem at14_main_v21 : W14 m ρ c (Proc.devRef .tc main_v21) = (Cert.Stages.row128 (F := Ideal) (m ((c : Thread nD τ).loc main_arg8))) :=
  ((keep13 m ρ c main_v21 (by decide)).trans ((keep12 m ρ c main_v21 (by decide)).trans ((keep11 m ρ c main_v21 (by decide)).trans ((keep10 m ρ c main_v21 (by decide)).trans ((keep9 m ρ c main_v21 (by decide)).trans ((keep8 m ρ c main_v21 (by decide)).trans ((keep7 m ρ c main_v21 (by decide)).trans ((keep6 m ρ c main_v21 (by decide)).trans (keep5 m ρ c main_v21 (by decide)))))))))).trans (entry_main_v21 m ρ c)
theorem at15_main_v23 : W15 m ρ c (Proc.devRef .tc main_v23) = (Cert.Stages.row64 (F := Ideal) (m ((c : Thread nD τ).loc main_arg12))) :=
  ((keep14 m ρ c main_v23 (by decide)).trans ((keep13 m ρ c main_v23 (by decide)).trans ((keep12 m ρ c main_v23 (by decide)).trans ((keep11 m ρ c main_v23 (by decide)).trans ((keep10 m ρ c main_v23 (by decide)).trans ((keep9 m ρ c main_v23 (by decide)).trans ((keep8 m ρ c main_v23 (by decide)).trans ((keep7 m ρ c main_v23 (by decide)).trans ((keep6 m ρ c main_v23 (by decide)).trans (keep5 m ρ c main_v23 (by decide))))))))))).trans (entry_main_v23 m ρ c)

private theorem congr3 {α β γ δ : Type} (f : α → β → γ → δ) {a a' : α} {b b' : β} {c c' : γ} (ha : a = a') (hb : b = b') (hc : c = c') :
    f a b c = f a' b' c' := by subst ha hb hc; rfl
private theorem congr4 {α β γ δ ε : Type} (f : α → β → γ → δ → ε) {a a' : α} {b b' : β} {c c' : γ} {d d' : δ}
    (ha : a = a') (hb : b = b') (hc : c = c') (hd : d = d') : f a b c d = f a' b' c' d' := by subst ha hb hc hd; rfl

/-! ## The result of each region and each neighbourhood sum, in program order -/

/-- Region 0 leaves the residual. -/
theorem res_at6 : W6 m ρ c (Proc.devRef .tc main_v24) = res m c :=
  (W6_arr m ρ c 3).trans ((Cert.KernelIdeal.RegionValue.final0 (V5 m ρ) c).trans
    (congr3 (Cert.Stages.lin (F := Ideal)) (at5_main_arg0 m ρ c) (at5_main_arg9 m ρ c) (entry_main_v22 m ρ c)))
theorem res_at14 : W14 m ρ c (Proc.devRef .tc main_v24) = res m c :=
  ((keep13 m ρ c main_v24 (by decide)).trans ((keep12 m ρ c main_v24 (by decide)).trans ((keep11 m ρ c main_v24 (by decide)).trans ((keep10 m ρ c main_v24 (by decide)).trans ((keep9 m ρ c main_v24 (by decide)).trans ((keep8 m ρ c main_v24 (by decide)).trans ((keep7 m ρ c main_v24 (by decide)).trans (keep6 m ρ c main_v24 (by decide))))))))).trans (res_at6 m ρ c)
/-- Region 1 leaves the first round's messages. -/
theorem msg1_at7 : W7 m ρ c (Proc.devRef .tc main_v25) = msg1 m c :=
  (W7_arr m ρ c 3).trans ((Cert.KernelIdeal.RegionValue.final1 (V6 m ρ) c).trans
    (congr3 (Cert.Stages.preAgg (F := Ideal)) (at6_main_arg0 m ρ c) (at6_main_v17 m ρ c) (at6_main_arg3 m ρ c)))
theorem sum1_at8 : W8 m ρ c (Proc.devRef .tc main_v35) = sum1 m c :=
  (sum_hostOps2 (W7 m ρ c)).trans (congr3 (Cert.Stages.aggregate (F := Ideal)) (msg1_at7 m ρ c) (at7_main_arg1 m ρ c) (at7_main_arg2 m ρ c))
theorem upd1_at9 : W9 m ρ c (Proc.devRef .tc main_v36) = upd1 m c :=
  (W9_arr m ρ c 3).trans ((Cert.KernelIdeal.RegionValue.final2 (V8 m ρ) c).trans
    (congr3 (Cert.Stages.postAgg (F := Ideal)) (sum1_at8 m ρ c) (at8_main_v18 m ρ c) (at8_main_v19 m ρ c)))
theorem msg2_at10 : W10 m ρ c (Proc.devRef .tc main_v37) = msg2 m c :=
  (W10_arr m ρ c 3).trans ((Cert.KernelIdeal.RegionValue.final3 (V9 m ρ) c).trans
    (congr3 (Cert.Stages.preAgg (F := Ideal)) (upd1_at9 m ρ c) (at9_main_v17 m ρ c) (at9_main_arg5 m ρ c)))
theorem sum2_at11 : W11 m ρ c (Proc.devRef .tc main_v47) = sum2 m c :=
  (sum_hostOps4 (W10 m ρ c)).trans (congr3 (Cert.Stages.aggregate (F := Ideal)) (msg2_at10 m ρ c) (at10_main_arg1 m ρ c) (at10_main_arg2 m ρ c))
theorem upd2_at12 : W12 m ρ c (Proc.devRef .tc main_v48) = upd2 m c :=
  (W12_arr m ρ c 3).trans ((Cert.KernelIdeal.RegionValue.final4 (V11 m ρ) c).trans
    (congr3 (Cert.Stages.postAgg (F := Ideal)) (sum2_at11 m ρ c) (at11_main_v18 m ρ c) (at11_main_v20 m ρ c)))
theorem msg3_at13 : W13 m ρ c (Proc.devRef .tc main_v49) = msg3 m c :=
  (W13_arr m ρ c 3).trans ((Cert.KernelIdeal.RegionValue.final5 (V12 m ρ) c).trans
    (congr3 (Cert.Stages.preAgg (F := Ideal)) (upd2_at12 m ρ c) (at12_main_v17 m ρ c) (at12_main_arg7 m ρ c)))
theorem sum3_at14 : W14 m ρ c (Proc.devRef .tc main_v59) = sum3 m c :=
  (sum_hostOps6 (W13 m ρ c)).trans (congr3 (Cert.Stages.aggregate (F := Ideal)) (msg3_at13 m ρ c) (at13_main_arg1 m ρ c) (at13_main_arg2 m ρ c))
theorem upd3_at15 : W15 m ρ c (Proc.devRef .tc main_v60) = upd3 m c :=
  (W15_arr m ρ c 4).trans ((Cert.KernelIdeal.RegionValue.final6 (V14 m ρ) c).trans
    (congr4 (Cert.Stages.postAggRes (F := Ideal)) (sum3_at14 m ρ c) (at14_main_v18 m ρ c) (at14_main_v21 m ρ c) (res_at14 m ρ c)))
/-- The last region leaves the network's output. -/
theorem out_at16 : W16 m ρ c (Proc.devRef .tc main_v61) = out m c :=
  (W16_arr m ρ c 3).trans ((Cert.KernelIdeal.RegionValue.final7 (V15 m ρ) c).trans
    (congr3 (Cert.Stages.lin64 (F := Ideal)) (upd3_at15 m ρ c) (at15_main_arg11 m ρ c) (at15_main_v23 m ρ c)))

/-- The result array after the run is the network of the argument arrays. -/
theorem result_eq : W16 m ρ c (Proc.devRef .tc main_v61) = Cert.Stages.forward (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (out_at16 m ρ c).trans (out_eq_forward m c)

end Cert.KernelIdeal.Fold

end
-- ==== Proof.lean ====
/-
  The certificate of a three-layer graph convolution with a residual head: the kernel program — eight tiled regions
  (a dense residual layer, three message layers, three update layers, an output layer) between the host's degree
  counts, gathers and scatter-adds — against the plain array program.

  Over the extended reals a change of float format is the identity and a matrix product is the plain sum of products,
  so each region's output array is, row block by row block, the corresponding layer of the arrays the region found
  (`RegionDense`, `RegionMessage`, `RegionUpdate`), the host operations between the regions are the same operations
  in both programs, and following the kernel program's run boundary by boundary (`Fold`) its result array is the
  network `Cert.Stages.forward` of the thirteen argument arrays. The array program's run (`RefRun`) ends at the
  same term. No law of arithmetic joins the two sides beyond reading each product as a sum, so the precondition
  (finite inputs) is never opened; the kernel's idealization rewrote no operation, so that claim is trivial; the
  three frame claims are the generated frame certificates and the array program's run with its result dropped.
-/
import proofs.«154122_j45311904973171_1_alg».proof.Defs
import proofs.«154122_j45311904973171_1_alg».proof.Proof.Gen.Kernel
import proofs.«154122_j45311904973171_1_alg».proof.Proof.Gen.Kernel.Skeleton
import proofs.«154122_j45311904973171_1_alg».proof.Proof.Gen.Kernel.Launch
import proofs.«154122_j45311904973171_1_alg».proof.Proof.Gen.Kernel.Points
import proofs.«154122_j45311904973171_1_alg».proof.Proof.Gen.Kernel.Frame
import proofs.«154122_j45311904973171_1_alg».proof.Proof.Gen.KernelIdeal
import proofs.«154122_j45311904973171_1_alg».proof.Proof.Gen.KernelIdeal.Skeleton
import proofs.«154122_j45311904973171_1_alg».proof.Proof.Gen.KernelIdeal.Launch
import proofs.«154122_j45311904973171_1_alg».proof.Proof.Gen.KernelIdeal.Points
import proofs.«154122_j45311904973171_1_alg».proof.Proof.Gen.KernelIdeal.Frame
import proofs.«154122_j45311904973171_1_alg».proof.Proof.Gen.ReferenceIdeal
import proofs.«154122_j45311904973171_1_alg».proof.Proof.Gen.Pre_finite_inputs
import proofs.«154122_j45311904973171_1_alg».proof.Proof.RefRun
import proofs.«154122_j45311904973171_1_alg».proof.Proof.KernelRun
import proofs.«154122_j45311904973171_1_alg».proof.Proof.Fold
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The array program's run, its result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both programs end with the network of the argument arrays: the kernel program by its run read boundary by
    boundary, the array program by its run read back, from memories that agree on the arguments. -/
theorem algebraic : Cert.algebraic_KernelIdeal_ReferenceIdeal := by
  intro m ρ m' ρ' _ hagree
  refine ⟨fun c => Cert.Stages.forward (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Fold.result_eq m ρ c), (h c).2⟩)
      (Cert.KernelIdeal.KernelRun.run_result (F := Ideal) m ρ)
  · refine (θ_run Cert.ReferenceIdeal.defs _ _).mono (fun r h c => ⟨(h c).1.trans ?_, (h c).2⟩)
      (Cert.ReferenceIdeal.RefRun.run (F := Ideal) m' ρ')
    unfold Cert.ReferenceIdeal.RefRun.result
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
